-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)) →
    ∃ (v0 : (c : Dev Cert.KernelIdeal.nD) → Buf (Elt Ideal) ((c.tc : Thread Cert.KernelIdeal.nD Cert.KernelIdeal.τ).loc Cert.KernelIdeal.main_v86)) (v1 : (c : Dev Cert.KernelIdeal.nD) → Buf (Elt Ideal) ((c.tc : Thread Cert.KernelIdeal.nD Cert.KernelIdeal.τ).loc Cert.KernelIdeal.main_v79)) (v2 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_v79) = v1 c
          ∧ r.2.mem ((c.tc : Thread Cert.KernelIdeal.nD Cert.KernelIdeal.τ).loc Cert.KernelIdeal.main_v83) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v123) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x64 : Shape := ⟨2, ![20000, 64]⟩
abbrev S100000x64 : Shape := ⟨2, ![100000, 64]⟩
abbrev S1600000 : Shape := ⟨1, ![1600000]⟩
abbrev S400000 : Shape := ⟨1, ![400000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S20000x64 : S_.BroadcastsInDim S20000x64 (![] : Fin 0 → Fin S20000x64.rank)
  reducesTo_S20000x64_S_d0_1 : S20000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg22 : FVec F S128 .f32) (main_arg23 : FVec F S128x1 .f32) (main_arg24 : FVec F S1 .f32) (main_arg25 : FVec F S1 .f32) (main_v63 : IVec S_ 1) (main_v67 : IVec S_ 1) : IVec S_ 1 :=
  let main_v68 : IVec S_ 1 := andi main_v63 main_v67
  let main_v69 : FVec F S128 .f32 := Host.absf main_arg22
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg23
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg24
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  let main_v84 : FVec F S1 .f32 := Host.absf main_arg25
  let main_cst_32 : FVec F S_ .f32 := constant S_ .f32 0x7F800000#32
  fn_part5 (F := F) main_v83 main_v84 main_cst_32

def fn_part3 {F : FTy → Type} [FloatOps F] (main_arg19 : FVec F S128 .f32) (main_arg20 : FVec F S64x128 .f32) (main_arg21 : FVec F S64x128 .f32) (main_arg22 : FVec F S128 .f32) (main_arg23 : FVec F S128x1 .f32) (main_arg24 : FVec F S1 .f32) (main_arg25 : FVec F S1 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128 .f32 := Host.absf main_arg19
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S64x128 .f32 := Host.absf main_arg20
  let main_cst_22 : FVec F S_ .f32 := constant S_ .f32 0x7F800000#32
  let main_v60 : FVec F S64x128 .f32 := broadcastInDim S64x128 ![] bcast_S_S64x128 main_cst_22
  let main_v61 : IVec S64x128 1 := cmpf .olt main_v59 main_v60
  let main_c_23 : IVec S_ 1 := constantI S_ 1 1#1
  let main_v62 : IVec S_ 1 := (fun x v => Host.reduce IntOp.andi x v reducesTo_S64x128_S_d0_1 h_S_) main_v61 main_c_23
  let main_v63 : IVec S_ 1 := andi main_v58 main_v62
  let main_v64 : FVec F S64x128 .f32 := Host.absf main_arg21
  let main_cst_24 : FVec F S_ .f32 := constant S_ .f32 0x7F800000#32
  let main_v65 : FVec F S64x128 .f32 := broadcastInDim S64x128 ![] bcast_S_S64x128 main_cst_24
  let main_v66 : IVec S64x128 1 := cmpf .olt main_v64 main_v65
  let main_c_25 : IVec S_ 1 := constantI S_ 1 1#1
  let main_v67 : IVec S_ 1 := (fun x v => Host.reduce IntOp.andi x v reducesTo_S64x128_S_d0_1 h_S_) main_v66 main_c_25
  fn_part4 (F := F) main_arg22 main_arg23 main_arg24 main_arg25 main_v63 main_v67

def fn_part2 {F : FTy → Type} [FloatOps F] (main_arg15 : FVec F S64x128 .f32) (main_arg16 : FVec F S128 .f32) (main_arg17 : FVec F S64x128 .f32) (main_arg18 : FVec F S64x128 .f32) (main_arg19 : FVec F S128 .f32) (main_arg20 : FVec F S64x128 .f32) (main_arg21 : FVec F S64x128 .f32) (main_arg22 : FVec F S128 .f32) (main_arg23 : FVec F S128x1 .f32) (main_arg24 : FVec F S1 .f32) (main_arg25 : FVec F S1 .f32) (main_v33 : IVec S_ 1) : IVec S_ 1 :=
  let main_v34 : FVec F S64x128 .f32 := Host.absf main_arg15
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S128 .f32 := Host.absf main_arg16
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S64x128 .f32 := Host.absf main_arg17
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S64x128 .f32 := Host.absf main_arg18
  let main_cst_18 : FVec F S_ .f32 := constant S_ .f32 0x7F800000#32
  let main_v50 : FVec F S64x128 .f32 := broadcastInDim S64x128 ![] bcast_S_S64x128 main_cst_18
  fn_part3 (F := F) main_arg19 main_arg20 main_arg21 main_arg22 main_arg23 main_arg24 main_arg25 main_v48 main_v49 main_v50

def fn_part1 {F : FTy → Type} [FloatOps F] (main_arg12 : FVec F S64x128 .f32) (main_arg13 : FVec F S128 .f32) (main_arg14 : FVec F S64x128 .f32) (main_arg15 : FVec F S64x128 .f32) (main_arg16 : FVec F S128 .f32) (main_arg17 : FVec F S64x128 .f32) (main_arg18 : FVec F S64x128 .f32) (main_arg19 : FVec F S128 .f32) (main_arg20 : FVec F S64x128 .f32) (main_arg21 : FVec F S64x128 .f32) (main_arg22 : FVec F S128 .f32) (main_arg23 : FVec F S128x1 .f32) (main_arg24 : FVec F S1 .f32) (main_arg25 : FVec F S1 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S64x128 .f32 := Host.absf main_arg12
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S128 .f32 := Host.absf main_arg13
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg14
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg15 main_arg16 main_arg17 main_arg18 main_arg19 main_arg20 main_arg21 main_arg22 main_arg23 main_arg24 main_arg25 main_v33

def fn {F : FTy → Type} [FloatOps F] (main_arg0 : FVec F S20000x64 .f32) (main_arg1 : FVec F S100000x64 .f32) (main_arg2 : FVec F S20000x64 .f32) (main_arg3 : IVec S1600000 32) (main_arg4 : IVec S1600000 32) (main_arg5 : IVec S1600000 32) (main_arg6 : IVec S1600000 32) (main_arg7 : IVec S400000 32) (main_arg8 : IVec S400000 32) (main_arg9 : IVec S400000 32) (main_arg10 : IVec S400000 32) (main_arg11 : FVec F S64x128 .f32) (main_arg12 : FVec F S64x128 .f32) (main_arg13 : FVec F S128 .f32) (main_arg14 : FVec F S64x128 .f32) (main_arg15 : FVec F S64x128 .f32) (main_arg16 : FVec F S128 .f32) (main_arg17 : FVec F S64x128 .f32) (main_arg18 : FVec F S64x128 .f32) (main_arg19 : FVec F S128 .f32) (main_arg20 : FVec F S64x128 .f32) (main_arg21 : FVec F S64x128 .f32) (main_arg22 : FVec F S128 .f32) (main_arg23 : FVec F S128x1 .f32) (main_arg24 : FVec F S1 .f32) (main_arg25 : FVec F S1 .f32) : IVec S_ 1 :=
  let main_v0 : FVec F S20000x64 .f32 := Host.absf main_arg0
  let main_cst : FVec F S_ .f32 := constant S_ .f32 0x7F800000#32
  let main_v1 : FVec F S20000x64 .f32 := broadcastInDim S20000x64 ![] bcast_S_S20000x64 main_cst
  let main_v2 : IVec S20000x64 1 := cmpf .olt main_v0 main_v1
  let main_c : IVec S_ 1 := constantI S_ 1 1#1
  let main_v3 : IVec S_ 1 := (fun x v => Host.reduce IntOp.andi x v reducesTo_S20000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S20000x64 .f32 := Host.absf main_arg2
  let main_cst_2 : FVec F S_ .f32 := constant S_ .f32 0x7F800000#32
  let main_v10 : FVec F S20000x64 .f32 := broadcastInDim S20000x64 ![] bcast_S_S20000x64 main_cst_2
  let main_v11 : IVec S20000x64 1 := cmpf .olt main_v9 main_v10
  let main_c_3 : IVec S_ 1 := constantI S_ 1 1#1
  let main_v12 : IVec S_ 1 := (fun x v => Host.reduce IntOp.andi x v reducesTo_S20000x64_S_d0_1 h_S_) main_v11 main_c_3
  let main_v13 : IVec S_ 1 := andi main_v8 main_v12
  let main_v14 : FVec F S64x128 .f32 := Host.absf main_arg11
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg12 main_arg13 main_arg14 main_arg15 main_arg16 main_arg17 main_arg18 main_arg19 main_arg20 main_arg21 main_arg22 main_arg23 main_arg24 main_arg25 main_v13 main_v16
-- ==== Kernel.lean ====
abbrev S20000x64 : Shape := ⟨2, ![20000, 64]⟩
abbrev S100000x64 : Shape := ⟨2, ![100000, 64]⟩
abbrev S1600000 : Shape := ⟨1, ![1600000]⟩
abbrev S400000 : Shape := ⟨1, ![400000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S20000 : Shape := ⟨1, ![20000]⟩
abbrev S20000x1 : Shape := ⟨2, ![20000, 1]⟩
abbrev S400000x1 : Shape := ⟨2, ![400000, 1]⟩
abbrev S400000x64 : Shape := ⟨2, ![400000, 64]⟩
abbrev S1x128 : Shape := ⟨2, ![1, 128]⟩
abbrev S1x1 : Shape := ⟨2, ![1, 1]⟩
abbrev S5000x64 : Shape := ⟨2, ![5000, 64]⟩
abbrev S5000x1 : Shape := ⟨2, ![5000, 1]⟩
abbrev S5000x128 : Shape := ⟨2, ![5000, 128]⟩
abbrev S4000x64 : Shape := ⟨2, ![4000, 64]⟩
abbrev S4000x1 : Shape := ⟨2, ![4000, 1]⟩
abbrev S4000x128 : Shape := ⟨2, ![4000, 128]⟩
abbrev S20000x128 : Shape := ⟨2, ![20000, 128]⟩

abbrev nBuf : Space → Nat
  | .hbm => 137
  | .vmem => 38
  | .smem => 0
  | _ => 0

abbrev hbmTy0_0 (i : Nat) : BufTy := match i % 128 with
  | 0 => ⟨S20000x64, .f32⟩
  | 1 => ⟨S100000x64, .f32⟩
  | 2 => ⟨S20000x64, .f32⟩
  | 3 => ⟨S1600000, .i32⟩
  | 4 => ⟨S1600000, .i32⟩
  | 5 => ⟨S1600000, .i32⟩
  | 6 => ⟨S1600000, .i32⟩
  | 7 => ⟨S400000, .i32⟩
  | 8 => ⟨S400000, .i32⟩
  | 9 => ⟨S400000, .i32⟩
  | 10 => ⟨S400000, .i32⟩
  | 11 => ⟨S64x128, .f32⟩
  | 12 => ⟨S64x128, .f32⟩
  | 13 => ⟨S128, .f32⟩
  | 14 => ⟨S64x128, .f32⟩
  | 15 => ⟨S64x128, .f32⟩
  | 16 => ⟨S128, .f32⟩
  | 17 => ⟨S64x128, .f32⟩
  | 18 => ⟨S64x128, .f32⟩
  | 19 => ⟨S128, .f32⟩
  | 20 => ⟨S64x128, .f32⟩
  | 21 => ⟨S64x128, .f32⟩
  | 22 => ⟨S128, .f32⟩
  | 23 => ⟨S128x1, .f32⟩
  | 24 => ⟨S1, .f32⟩
  | 25 => ⟨S1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S_, .f32⟩
  | 40 => ⟨S1600000, .f32⟩
  | 41 => ⟨S_, .f32⟩
  | 42 => ⟨S100000, .f32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S_, .i32⟩
  | 52 => ⟨S1600000, .i32⟩
  | 53 => ⟨S1600000, .i1⟩
  | 54 => ⟨S_, .i32⟩
  | 55 => ⟨S1600000, .i32⟩
  | 56 => ⟨S1600000, .i32⟩
  | 57 => ⟨S1600000, .i32⟩
  | 58 => ⟨S1600000x1, .i32⟩
  | 59 => ⟨S1600000x64, .f32⟩
  | 60 => ⟨S_, .f32⟩
  | 61 => ⟨S20000x64, .f32⟩
  | 62 => ⟨S1600000x1, .i32⟩
  | 63 => ⟨S20000x64, .f32⟩
  | 64 => ⟨S_, .f32⟩
  | 65 => ⟨S1600000, .f32⟩
  | 66 => ⟨S_, .f32⟩
  | 67 => ⟨S20000, .f32⟩
  | 68 => ⟨S1600000x1, .i32⟩
  | 69 => ⟨S20000, .f32⟩
  | 70 => ⟨S_, .f32⟩
  | 71 => ⟨S20000, .f32⟩
  | 72 => ⟨S20000, .f32⟩
  | 73 => ⟨S20000x1, .f32⟩
  | 74 => ⟨S20000x64, .f32⟩
  | 75 => ⟨S20000x64, .f32⟩
  | 76 => ⟨S_, .i32⟩
  | 77 => ⟨S400000, .i32⟩
  | 78 => ⟨S400000, .i1⟩
  | 79 => ⟨S_, .i32⟩
  | 80 => ⟨S400000, .i32⟩
  | 81 => ⟨S400000, .i32⟩
  | 82 => ⟨S400000, .i32⟩
  | 83 => ⟨S400000x1, .i32⟩
  | 84 => ⟨S400000x64, .f32⟩
  | 85 => ⟨S_, .f32⟩
  | 86 => ⟨S20000x64, .f32⟩
  | 87 => ⟨S400000x1, .i32⟩
  | 88 => ⟨S20000x64, .f32⟩
  | 89 => ⟨S_, .f32⟩
  | 90 => ⟨S400000, .f32⟩
  | 91 => ⟨S_, .f32⟩
  | 92 => ⟨S20000, .f32⟩
  | 93 => ⟨S400000x1, .i32⟩
  | 94 => ⟨S20000, .f32⟩
  | 95 => ⟨S_, .f32⟩
  | 96 => ⟨S20000, .f32⟩
  | 97 => ⟨S20000, .f32⟩
  | 98 => ⟨S20000x1, .f32⟩
  | 99 => ⟨S20000x64, .f32⟩
  | 100 => ⟨S20000x64, .f32⟩
  | 101 => ⟨S_, .i32⟩
  | 102 => ⟨S400000, .i32⟩
  | 103 => ⟨S400000, .i1⟩
  | 104 => ⟨S_, .i32⟩
  | 105 => ⟨S400000, .i32⟩
  | 106 => ⟨S400000, .i32⟩
  | 107 => ⟨S400000, .i32⟩
  | 108 => ⟨S400000x1, .i32⟩
  | 109 => ⟨S400000x64, .f32⟩
  | 110 => ⟨S_, .f32⟩
  | 111 => ⟨S20000x64, .f32⟩
  | 112 => ⟨S400000x1, .i32⟩
  | 113 => ⟨S20000x64, .f32⟩
  | 114 => ⟨S_, .f32⟩
  | 115 => ⟨S400000, .f32⟩
  | 116 => ⟨S_, .f32⟩
  | 117 => ⟨S20000, .f32⟩
  | 118 => ⟨S400000x1, .i32⟩
  | 119 => ⟨S20000, .f32⟩
  | 120 => ⟨S_, .f32⟩
  | 121 => ⟨S20000, .f32⟩
  | 122 => ⟨S20000, .f32⟩
  | 123 => ⟨S20000x1, .f32⟩
  | 124 => ⟨S20000x64, .f32⟩
  | 125 => ⟨S20000x64, .f32⟩
  | 126 => ⟨S1x128, .f32⟩
  | 127 => ⟨S1x1, .f32⟩
  | _ => ⟨S20000x64, .f32⟩

abbrev hbmTy0_1 (i : Nat) : BufTy := match i % 128 with
  | 0 => ⟨S1x1, .f32⟩
  | 1 => ⟨S100000x1, .f32⟩
  | 2 => ⟨S1x128, .f32⟩
  | 3 => ⟨S1x1, .f32⟩
  | 4 => ⟨S1x1, .f32⟩
  | 5 => ⟨S20000x1, .f32⟩
  | 6 => ⟨S1x128, .f32⟩
  | 7 => ⟨S1x128, .f32⟩
  | 8 => ⟨S20000x128, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x128, .f32⟩
  | .local _ .vmem, ⟨5, _⟩ => ⟨S64x128, .f32⟩
  | .local _ .vmem, ⟨6, _⟩ => ⟨S1x128, .f32⟩
  | .local _ .vmem, ⟨7, _⟩ => ⟨S128x1, .f32⟩
  | .local _ .vmem, ⟨8, _⟩ => ⟨S1x1, .f32⟩
  | .local _ .vmem, ⟨9, _⟩ => ⟨S1x1, .f32⟩
  | .local _ .vmem, ⟨10, _⟩ => ⟨S5000x1, .f32⟩
  | .local _ .vmem, ⟨11, _⟩ => ⟨S5000x1, .f32⟩
  | .local _ .vmem, ⟨12, _⟩ => ⟨S4000x64, .f32⟩
  | .local _ .vmem, ⟨13, _⟩ => ⟨S4000x64, .f32⟩
  | .local _ .vmem, ⟨14, _⟩ => ⟨S4000x64, .f32⟩
  | .local _ .vmem, ⟨15, _⟩ => ⟨S4000x64, .f32⟩
  | .local _ .vmem, ⟨16, _⟩ => ⟨S64x128, .f32⟩
  | .local _ .vmem, ⟨17, _⟩ => ⟨S64x128, .f32⟩
  | .local _ .vmem, ⟨18, _⟩ => ⟨S1x128, .f32⟩
  | .local _ .vmem, ⟨19, _⟩ => ⟨S128x1, .f32⟩
  | .local _ .vmem, ⟨20, _⟩ => ⟨S1x1, .f32⟩
  | .local _ .vmem, ⟨21, _⟩ => ⟨S1x1, .f32⟩
  | .local _ .vmem, ⟨22, _⟩ => ⟨S4000x1, .f32⟩
  | .local _ .vmem, ⟨23, _⟩ => ⟨S4000x1, .f32⟩
  | .local _ .vmem, ⟨24, _⟩ => ⟨S4000x64, .f32⟩
  | .local _ .vmem, ⟨25, _⟩ => ⟨S4000x64, .f32⟩
  | .local _ .vmem, ⟨26, _⟩ => ⟨S4000x64, .f32⟩
  | .local _ .vmem, ⟨27, _⟩ => ⟨S4000x64, .f32⟩
  | .local _ .vmem, ⟨28, _⟩ => ⟨S64x128, .f32⟩
  | .local _ .vmem, ⟨29, _⟩ => ⟨S64x128, .f32⟩
  | .local _ .vmem, ⟨30, _⟩ => ⟨S1x128, .f32⟩
  | .local _ .vmem, ⟨31, _⟩ => ⟨S4000x64, .f32⟩
  | .local _ .vmem, ⟨32, _⟩ => ⟨S4000x64, .f32⟩
  | .local _ .vmem, ⟨33, _⟩ => ⟨S64x128, .f32⟩
  | .local _ .vmem, ⟨34, _⟩ => ⟨S64x128, .f32⟩
  | .local _ .vmem, ⟨35, _⟩ => ⟨S1x128, .f32⟩
  | .local _ .vmem, ⟨36, _⟩ => ⟨S4000x128, .f32⟩
  | .local _ .vmem, ⟨37, _⟩ => ⟨S4000x128, .f32⟩
  | _, _ => ⟨S20000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_c_4 : Ref sig .tc := ⟨.hbm, 51, rfl⟩
abbrev main_v19 : Ref sig .tc := ⟨.hbm, 52, rfl⟩
abbrev main_v20 : Ref sig .tc := ⟨.hbm, 53, rfl⟩
abbrev main_c_5 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_v25 : Ref sig .tc := ⟨.hbm, 59, rfl⟩
abbrev main_cst_6 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_cst_7 : Ref sig .tc := ⟨.hbm, 64, rfl⟩
abbrev main_v29 : Ref sig .tc := ⟨.hbm, 65, rfl⟩
abbrev main_cst_8 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_cst_9 : Ref sig .tc := ⟨.hbm, 70, rfl⟩
abbrev main_v33 : Ref sig .tc := ⟨.hbm, 71, rfl⟩
abbrev main_v34 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_c_10 : Ref sig .tc := ⟨.hbm, 76, rfl⟩
abbrev main_v38 : Ref sig .tc := ⟨.hbm, 77, rfl⟩
abbrev main_v39 : Ref sig .tc := ⟨.hbm, 78, rfl⟩
abbrev main_c_11 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_cst_12 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_cst_13 : Ref sig .tc := ⟨.hbm, 89, rfl⟩
abbrev main_v48 : Ref sig .tc := ⟨.hbm, 90, rfl⟩
abbrev main_cst_14 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_cst_15 : Ref sig .tc := ⟨.hbm, 95, rfl⟩
abbrev main_v52 : Ref sig .tc := ⟨.hbm, 96, rfl⟩
abbrev main_v53 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_c_16 : Ref sig .tc := ⟨.hbm, 101, rfl⟩
abbrev main_v57 : Ref sig .tc := ⟨.hbm, 102, rfl⟩
abbrev main_v58 : Ref sig .tc := ⟨.hbm, 103, rfl⟩
abbrev main_c_17 : Ref sig .tc := ⟨.hbm, 104, rfl⟩
abbrev main_v59 : Ref sig .tc := ⟨.hbm, 105, rfl⟩
abbrev main_v60 : Ref sig .tc := ⟨.hbm, 106, rfl⟩
abbrev main_v61 : Ref sig .tc := ⟨.hbm, 107, rfl⟩
abbrev main_v62 : Ref sig .tc := ⟨.hbm, 108, rfl⟩
abbrev main_v63 : Ref sig .tc := ⟨.hbm, 109, rfl⟩
abbrev main_cst_18 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_cst_19 : Ref sig .tc := ⟨.hbm, 114, rfl⟩
abbrev main_v67 : Ref sig .tc := ⟨.hbm, 115, rfl⟩
abbrev main_cst_20 : Ref sig .tc := ⟨.hbm, 116, rfl⟩
abbrev main_v68 : Ref sig .tc := ⟨.hbm, 117, rfl⟩
abbrev main_v69 : Ref sig .tc := ⟨.hbm, 118, rfl⟩
abbrev main_v70 : Ref sig .tc := ⟨.hbm, 119, rfl⟩
abbrev main_cst_21 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg1_1 : Ref sig .tc := ⟨.vmem, 27, rfl⟩
abbrev cc2_stg2_0 : Ref sig .tc := ⟨.vmem, 28, rfl⟩
abbrev cc2_stg3_0 : Ref sig .tc := ⟨.vmem, 29, rfl⟩
abbrev cc2_stg4_0 : Ref sig .tc := ⟨.vmem, 30, rfl⟩
abbrev cc2_stg5_0 : Ref sig .tc := ⟨.vmem, 31, rfl⟩
abbrev cc2_stg5_1 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg8_0 : Ref sig .tc := ⟨.vmem, 35, rfl⟩
abbrev cc2_stg9_0 : Ref sig .tc := ⟨.vmem, 36, rfl⟩
abbrev cc2_stg9_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem3_0 : DmaSem sig := 29
abbrev cc2_sem4_0 : DmaSem sig := 30
abbrev cc2_sem5_0 : DmaSem sig := 31
abbrev cc2_sem5_1 : DmaSem sig := 32
abbrev cc2_sem6_0 : DmaSem sig := 33
abbrev cc2_sem7_0 : DmaSem sig := 34
abbrev cc2_sem8_0 : DmaSem sig := 35
abbrev cc2_sem9_0 : DmaSem sig := 36
abbrev cc2_sem9_1 : DmaSem sig := 37

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5000x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S4000x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S4000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S64x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S4000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S_S400000 : S_.BroadcastsInDim S400000 (![] : Fin 0 → Fin S400000.rank)
  bcast_S400000_S400000x1_0 : S400000.BroadcastsInDim S400000x1 (![0] : Fin 1 → Fin S400000x1.rank)
  shapeCasts_S128_S1x128 : S128.ShapeCasts S1x128
  shapeCasts_S1_S1x1 : S1.ShapeCasts S1x1
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inpos_S1x1_p0_0 : ∀ a, (![0, 0] : Fin 2 → Nat) a < S1x1.size a
  inb_S5000x1_S5000x1_0_0 : ∀ a, (![0, 0] : Fin 2 → Nat) a + S5000x1.size a ≤ S5000x1.size a
  h_S5000x1 : 0 < S5000x1.numel
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x128_S4000x128 : S1x128.Broadcasts S4000x128
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  inb_S4000x128_S4000x128_0_0 : ∀ a, (![0, 0] : Fin 2 → Nat) a + S4000x128.size a ≤ S4000x128.size a
  h_S4000x128 : 0 < S4000x128.numel
  gather_S20000x64_S1600000x1_S1600000x64_1_0_n_n_0_1_164_wf : GatherDims.WF S20000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S20000x64_S1600000x1_S1600000x64_1_0_0_1_wf : ScatterDims.WF S20000x64 S1600000x1 S1600000x64 [1] [0] [0] 1
  scatter_S20000_S1600000x1_S1600000_n_0_0_1_wf : ScatterDims.WF S20000 S1600000x1 S1600000 [] [0] [0] 1
  gather_S20000x64_S400000x1_S400000x64_1_0_n_n_0_1_164_wf : GatherDims.WF S20000x64 S400000x1 S400000x64 [1] [0] [] [0] [] 1 ![1, 64]
  scatter_S20000x64_S400000x1_S400000x64_1_0_0_1_wf : ScatterDims.WF S20000x64 S400000x1 S400000x64 [1] [0] [0] 1
  scatter_S20000_S400000x1_S400000_n_0_0_1_wf : ScatterDims.WF S20000 S400000x1 S400000 [] [0] [0] 1
  dot_S5000x64_S64x128_S5000x128_1_0_0_1_n_n_wf : DotDims.WF S5000x64 S64x128 S5000x128 [1] [0] [0] [1] [] []
  dot_S5000x128_S128x1_S5000x1_1_0_0_1_n_n_wf : DotDims.WF S5000x128 S128x1 S5000x1 [1] [0] [0] [1] [] []
  dot_S4000x64_S64x128_S4000x128_1_0_0_1_n_n_wf : DotDims.WF S4000x64 S64x128 S4000x128 [1] [0] [0] [1] [] []
  dot_S4000x128_S128x1_S4000x1_1_0_0_1_n_n_wf : DotDims.WF S4000x128 S128x1 S4000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x1.size a ≤ S128x1.size a
  hwx0_5 : ∀ i : grid0.Coords, EltTy.bits .f32 = 32 ∨ (Rect.block (s := S128x1) S128x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x1.size a ≤ S100000x1.size a
  hwx0_8 : ∀ i : grid0.Coords, EltTy.bits .f32 = 32 ∨ (Rect.block (s := S100000x1) S5000x1.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x64.size a ≤ S20000x64.size a
  hwx1_0 : ∀ i : grid1.Coords, EltTy.bits .f32 = 32 ∨ (Rect.block (s := S20000x64) S4000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x64.size a ≤ S20000x64.size a
  hwx1_1 : ∀ i : grid1.Coords, EltTy.bits .f32 = 32 ∨ (Rect.block (s := S20000x64) S4000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x128.size a ≤ S64x128.size a
  hwx1_3 : ∀ i : grid1.Coords, EltTy.bits .f32 = 32 ∨ (Rect.block (s := S64x128) S64x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x1.size a ≤ S128x1.size a
  hwx1_5 : ∀ i : grid1.Coords, EltTy.bits .f32 = 32 ∨ (Rect.block (s := S128x1) S128x1.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x1.size a ≤ S1x1.size a
  hwx1_7 : ∀ i : grid1.Coords, EltTy.bits .f32 = 32 ∨ (Rect.block (s := S1x1) S1x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S4000x1.size a ≤ S20000x1.size a
  hwx1_8 : ∀ i : grid1.Coords, EltTy.bits .f32 = 32 ∨ (Rect.block (s := S20000x1) S4000x1.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x64.size a ≤ S20000x64.size a
  hwx2_0 : ∀ i : grid2.Coords, EltTy.bits .f32 = 32 ∨ (Rect.block (s := S20000x64) S4000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4000x64.size a ≤ S20000x64.size a
  hwx2_1 : ∀ i : grid2.Coords, EltTy.bits .f32 = 32 ∨ (Rect.block (s := S20000x64) S4000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S4000x64.size a ≤ S20000x64.size a
  hwx2_5 : ∀ i : grid2.Coords, EltTy.bits .f32 = 32 ∨ (Rect.block (s := S20000x64) S4000x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64x128.size a ≤ S64x128.size a
  hwx2_6 : ∀ i : grid2.Coords, EltTy.bits .f32 = 32 ∨ (Rect.block (s := S64x128) S64x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64x128.size a ≤ S64x128.size a
  hwx2_7 : ∀ i : grid2.Coords, EltTy.bits .f32 = 32 ∨ (Rect.block (s := S64x128) S64x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x128.size a ≤ S1x128.size a
  hwx2_8 : ∀ i : grid2.Coords, EltTy.bits .f32 = 32 ∨ (Rect.block (s := S1x128) S1x128.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S4000x128.size a ≤ S20000x128.size a
  hwx2_9 : ∀ i : grid2.Coords, EltTy.bits .f32 = 32 ∨ (Rect.block (s := S20000x128) S4000x128.size (cc2_transform_9 i) (hinb2_9 i)).WholeWords (EltTy.packing .f32)

variable [Facts₀]

def gather_S20000x64_S1600000x1_S1600000x64_1_0_n_n_0_1_164 : GatherDims S20000x64 S1600000x1 S1600000x64 where
  offsetDims := [1]
  collapsedSliceDims := [0]
  operandBatchingDims := []
  startIndicesBatchingDims := []
  startIndexMap := [0]
  indexVectorDim := 1
  sliceSizes := ![1, 64]
  wf := gather_S20000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S20000x64_S1600000x1_S1600000x64_1_0_0_1 : ScatterDims S20000x64 S1600000x1 S1600000x64 where
  updateWindowDims := [1]
  insertedWindowDims := [0]
  scatterDimsToOperandDims := [0]
  indexVectorDim := 1
  wf := scatter_S20000x64_S1600000x1_S1600000x64_1_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def scatter_S20000x64_S400000x1_S400000x64_1_0_0_1 : ScatterDims S20000x64 S400000x1 S400000x64 where
  updateWindowDims := [1]
  insertedWindowDims := [0]
  scatterDimsToOperandDims := [0]
  indexVectorDim := 1
  wf := scatter_S20000x64_S400000x1_S400000x64_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x128_S128x1_S4000x1_1_0_0_1_n_n : DotDims S4000x128 S128x1 S4000x1 where
  lhsContracting := [1]
  rhsContracting := [0]
  lhsNonContracting := [0]
  rhsNonContracting := [1]
  lhsBatch := []
  rhsBatch := []
  wf := dot_S4000x128_S128x1_S4000x1_1_0_0_1_n_n_wf

abbrev win0_0 : Pipeline.Window sig grid0 :=
  Pipeline.Window.ofSpec (Memref.whole main_v18) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg11) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg12) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v76) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg23) S128x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v77) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v78) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v79) S5000x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v75) S4000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S4000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg20) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg21) S64x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v80) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg23) S128x1.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v81) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v82) S1x1.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v83) S4000x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v37) S4000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg14) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg15) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v84) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S4000x64.size cc2_transform_5 reads2_5 false false 2 stage2_5 sem2_5
    hrank2 hreads2_5 hinb2_5 nbuf2_5 (Memref.isWhole_whole _) hwx2_5 hstage2_5

abbrev win2_6 : Pipeline.Window sig grid2 :=
  Pipeline.Window.ofSpec (Memref.whole main_arg17) S64x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg18) S64x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v85) S1x128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v86) S4000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

class Facts : Prop extends Facts₀ where

variable [Facts]
-- ==== ReferenceIdeal.lean ====
abbrev S20000x64 : Shape := ⟨2, ![20000, 64]⟩
abbrev S100000x64 : Shape := ⟨2, ![100000, 64]⟩
abbrev S1600000 : Shape := ⟨1, ![1600000]⟩
abbrev S400000 : Shape := ⟨1, ![400000]⟩
abbrev S64x128 : Shape := ⟨2, ![64, 128]⟩
abbrev S128 : Shape := ⟨1, ![128]⟩
abbrev S128x1 : Shape := ⟨2, ![128, 1]⟩
abbrev S1 : Shape := ⟨1, ![1]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S100000x128 : Shape := ⟨2, ![100000, 128]⟩
abbrev S1x128 : Shape := ⟨2, ![1, 128]⟩
abbrev S20000 : Shape := ⟨1, ![20000]⟩
abbrev S20000x1 : Shape := ⟨2, ![20000, 1]⟩
abbrev S20000x128 : Shape := ⟨2, ![20000, 128]⟩
abbrev S400000x1 : Shape := ⟨2, ![400000, 1]⟩
abbrev S400000x64 : Shape := ⟨2, ![400000, 64]⟩
abbrev S1x1 : Shape := ⟨2, ![1, 1]⟩

abbrev nBuf : Space → Nat
  | .hbm => 182
  | .vmem => 0
  | .smem => 0
  | _ => 0

abbrev hbmTy0_0 (i : Nat) : BufTy := match i % 128 with
  | 0 => ⟨S20000x64, .f32⟩
  | 1 => ⟨S100000x64, .f32⟩
  | 2 => ⟨S20000x64, .f32⟩
  | 3 => ⟨S1600000, .i32⟩
  | 4 => ⟨S1600000, .i32⟩
  | 5 => ⟨S1600000, .i32⟩
  | 6 => ⟨S1600000, .i32⟩
  | 7 => ⟨S400000, .i32⟩
  | 8 => ⟨S400000, .i32⟩
  | 9 => ⟨S400000, .i32⟩
  | 10 => ⟨S400000, .i32⟩
  | 11 => ⟨S64x128, .f32⟩
  | 12 => ⟨S64x128, .f32⟩
  | 13 => ⟨S128, .f32⟩
  | 14 => ⟨S64x128, .f32⟩
  | 15 => ⟨S64x128, .f32⟩
  | 16 => ⟨S128, .f32⟩
  | 17 => ⟨S64x128, .f32⟩
  | 18 => ⟨S64x128, .f32⟩
  | 19 => ⟨S128, .f32⟩
  | 20 => ⟨S64x128, .f32⟩
  | 21 => ⟨S64x128, .f32⟩
  | 22 => ⟨S128, .f32⟩
  | 23 => ⟨S128x1, .f32⟩
  | 24 => ⟨S1, .f32⟩
  | 25 => ⟨S1, .f32⟩
  | 26 => ⟨S_, .i32⟩
  | 27 => ⟨S1600000, .i32⟩
  | 28 => ⟨S1600000, .i1⟩
  | 29 => ⟨S_, .i32⟩
  | 30 => ⟨S1600000, .i32⟩
  | 31 => ⟨S1600000, .i32⟩
  | 32 => ⟨S1600000, .i32⟩
  | 33 => ⟨S1600000x1, .i32⟩
  | 34 => ⟨S1600000x64, .f32⟩
  | 35 => ⟨S_, .f32⟩
  | 36 => ⟨S100000x64, .f32⟩
  | 37 => ⟨S1600000x1, .i32⟩
  | 38 => ⟨S100000x64, .f32⟩
  | 39 => ⟨S_, .f32⟩
  | 40 => ⟨S1600000, .f32⟩
  | 41 => ⟨S_, .f32⟩
  | 42 => ⟨S100000, .f32⟩
  | 43 => ⟨S1600000x1, .i32⟩
  | 44 => ⟨S100000, .f32⟩
  | 45 => ⟨S_, .f32⟩
  | 46 => ⟨S100000, .f32⟩
  | 47 => ⟨S100000, .f32⟩
  | 48 => ⟨S100000x1, .f32⟩
  | 49 => ⟨S100000x64, .f32⟩
  | 50 => ⟨S100000x64, .f32⟩
  | 51 => ⟨S100000x128, .f32⟩
  | 52 => ⟨S100000x128, .f32⟩
  | 53 => ⟨S100000x128, .f32⟩
  | 54 => ⟨S1x128, .f32⟩
  | 55 => ⟨S100000x128, .f32⟩
  | 56 => ⟨S100000x128, .f32⟩
  | 57 => ⟨S_, .f32⟩
  | 58 => ⟨S100000x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x64, .f32⟩
  | 69 => ⟨S_, .f32⟩
  | 70 => ⟨S20000x64, .f32⟩
  | 71 => ⟨S1600000x1, .i32⟩
  | 72 => ⟨S20000x64, .f32⟩
  | 73 => ⟨S_, .f32⟩
  | 74 => ⟨S1600000, .f32⟩
  | 75 => ⟨S_, .f32⟩
  | 76 => ⟨S20000, .f32⟩
  | 77 => ⟨S1600000x1, .i32⟩
  | 78 => ⟨S20000, .f32⟩
  | 79 => ⟨S_, .f32⟩
  | 80 => ⟨S20000, .f32⟩
  | 81 => ⟨S20000, .f32⟩
  | 82 => ⟨S20000x1, .f32⟩
  | 83 => ⟨S20000x64, .f32⟩
  | 84 => ⟨S20000x64, .f32⟩
  | 85 => ⟨S20000x128, .f32⟩
  | 86 => ⟨S20000x128, .f32⟩
  | 87 => ⟨S20000x128, .f32⟩
  | 88 => ⟨S1x128, .f32⟩
  | 89 => ⟨S20000x128, .f32⟩
  | 90 => ⟨S20000x128, .f32⟩
  | 91 => ⟨S_, .i32⟩
  | 92 => ⟨S400000, .i32⟩
  | 93 => ⟨S400000, .i1⟩
  | 94 => ⟨S_, .i32⟩
  | 95 => ⟨S400000, .i32⟩
  | 96 => ⟨S400000, .i32⟩
  | 97 => ⟨S400000, .i32⟩
  | 98 => ⟨S400000x1, .i32⟩
  | 99 => ⟨S400000x64, .f32⟩
  | 100 => ⟨S_, .f32⟩
  | 101 => ⟨S20000x64, .f32⟩
  | 102 => ⟨S400000x1, .i32⟩
  | 103 => ⟨S20000x64, .f32⟩
  | 104 => ⟨S_, .f32⟩
  | 105 => ⟨S400000, .f32⟩
  | 106 => ⟨S_, .f32⟩
  | 107 => ⟨S20000, .f32⟩
  | 108 => ⟨S400000x1, .i32⟩
  | 109 => ⟨S20000, .f32⟩
  | 110 => ⟨S_, .f32⟩
  | 111 => ⟨S20000, .f32⟩
  | 112 => ⟨S20000, .f32⟩
  | 113 => ⟨S20000x1, .f32⟩
  | 114 => ⟨S20000x64, .f32⟩
  | 115 => ⟨S20000x64, .f32⟩
  | 116 => ⟨S20000x128, .f32⟩
  | 117 => ⟨S20000x128, .f32⟩
  | 118 => ⟨S20000x128, .f32⟩
  | 119 => ⟨S1x128, .f32⟩
  | 120 => ⟨S20000x128, .f32⟩
  | 121 => ⟨S20000x128, .f32⟩
  | 122 => ⟨S20000x128, .f32⟩
  | 123 => ⟨S_, .f32⟩
  | 124 => ⟨S20000x128, .f32⟩
  | 125 => ⟨S20000x128, .f32⟩
  | 126 => ⟨S_, .i32⟩
  | 127 => ⟨S400000, .i32⟩
  | _ => ⟨S20000x64, .f32⟩

abbrev hbmTy0_1 (i : Nat) : BufTy := match i % 128 with
  | 0 => ⟨S400000, .i1⟩
  | 1 => ⟨S_, .i32⟩
  | 2 => ⟨S400000, .i32⟩
  | 3 => ⟨S400000, .i32⟩
  | 4 => ⟨S400000, .i32⟩
  | 5 => ⟨S400000x1, .i32⟩
  | 6 => ⟨S400000x64, .f32⟩
  | 7 => ⟨S_, .f32⟩
  | 8 => ⟨S20000x64, .f32⟩
  | 9 => ⟨S400000x1, .i32⟩
  | 10 => ⟨S20000x64, .f32⟩
  | 11 => ⟨S_, .f32⟩
  | 12 => ⟨S400000, .f32⟩
  | 13 => ⟨S_, .f32⟩
  | 14 => ⟨S20000, .f32⟩
  | 15 => ⟨S400000x1, .i32⟩
  | 16 => ⟨S20000, .f32⟩
  | 17 => ⟨S_, .f32⟩
  | 18 => ⟨S20000, .f32⟩
  | 19 => ⟨S20000, .f32⟩
  | 20 => ⟨S20000x1, .f32⟩
  | 21 => ⟨S20000x64, .f32⟩
  | 22 => ⟨S20000x64, .f32⟩
  | 23 => ⟨S20000x128, .f32⟩
  | 24 => ⟨S20000x128, .f32⟩
  | 25 => ⟨S20000x128, .f32⟩
  | 26 => ⟨S1x128, .f32⟩
  | 27 => ⟨S20000x128, .f32⟩
  | 28 => ⟨S20000x128, .f32⟩
  | 29 => ⟨S_, .f32⟩
  | 30 => ⟨S20000x128, .f32⟩
  | 31 => ⟨S20000x128, .f32⟩
  | 32 => ⟨S100000x1, .f32⟩
  | 33 => ⟨S1x1, .f32⟩
  | 34 => ⟨S100000x1, .f32⟩
  | 35 => ⟨S100000x1, .f32⟩
  | 36 => ⟨S_, .f32⟩
  | 37 => ⟨S100000x1, .f32⟩
  | 38 => ⟨S100000x1, .i1⟩
  | 39 => ⟨S1x1, .f32⟩
  | 40 => ⟨S100000x1, .f32⟩
  | 41 => ⟨S100000x1, .f32⟩
  | 42 => ⟨S100000x1, .f32⟩
  | 43 => ⟨S20000x1, .f32⟩
  | 44 => ⟨S1x1, .f32⟩
  | 45 => ⟨S20000x1, .f32⟩
  | 46 => ⟨S20000x1, .f32⟩
  | 47 => ⟨S_, .f32⟩
  | 48 => ⟨S20000x1, .f32⟩
  | 49 => ⟨S20000x1, .i1⟩
  | 50 => ⟨S1x1, .f32⟩
  | 51 => ⟨S20000x1, .f32⟩
  | 52 => ⟨S20000x1, .f32⟩
  | 53 => ⟨S20000x1, .f32⟩
  | _ => ⟨S20000x64, .f32⟩

abbrev hbmTy (i : Nat) : BufTy := match i / 128 with
  | 0 => hbmTy0_0 i
  | 1 => hbmTy0_1 i
  | _ => ⟨S20000x64, .f32⟩

abbrev bufTy : (tb : Table) → Fin (tcTables nBuf tb) → BufTy
  | .hbm, ⟨i, _⟩ => hbmTy i
  | _, _ => ⟨S20000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_c : Ref sig .tc := ⟨.hbm, 26, rfl⟩
abbrev main_v0 : Ref sig .tc := ⟨.hbm, 27, rfl⟩
abbrev main_v1 : Ref sig .tc := ⟨.hbm, 28, rfl⟩
abbrev main_c_0 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_cst : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_cst_1 : Ref sig .tc := ⟨.hbm, 39, rfl⟩
abbrev main_v10 : Ref sig .tc := ⟨.hbm, 40, rfl⟩
abbrev main_cst_2 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_cst_3 : Ref sig .tc := ⟨.hbm, 45, rfl⟩
abbrev main_v14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_call0_cst : Ref sig .tc := ⟨.hbm, 57, rfl⟩
abbrev main_call0_v0 : Ref sig .tc := ⟨.hbm, 58, rfl⟩
abbrev main_v25 : Ref sig .tc := ⟨.hbm, 59, rfl⟩
abbrev main_c_4 : Ref sig .tc := ⟨.hbm, 60, rfl⟩
abbrev main_v26 : Ref sig .tc := ⟨.hbm, 61, rfl⟩
abbrev main_v27 : Ref sig .tc := ⟨.hbm, 62, rfl⟩
abbrev main_c_5 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_cst_6 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_cst_7 : Ref sig .tc := ⟨.hbm, 73, rfl⟩
abbrev main_v36 : Ref sig .tc := ⟨.hbm, 74, rfl⟩
abbrev main_cst_8 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_cst_9 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_c_10 : Ref sig .tc := ⟨.hbm, 91, rfl⟩
abbrev main_v51 : Ref sig .tc := ⟨.hbm, 92, rfl⟩
abbrev main_v52 : Ref sig .tc := ⟨.hbm, 93, rfl⟩
abbrev main_c_11 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_cst_12 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_cst_13 : Ref sig .tc := ⟨.hbm, 104, rfl⟩
abbrev main_v61 : Ref sig .tc := ⟨.hbm, 105, rfl⟩
abbrev main_cst_14 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_cst_15 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_call1_cst : Ref sig .tc := ⟨.hbm, 123, rfl⟩
abbrev main_call1_v0 : Ref sig .tc := ⟨.hbm, 124, rfl⟩
abbrev main_v77 : Ref sig .tc := ⟨.hbm, 125, rfl⟩
abbrev main_c_16 : Ref sig .tc := ⟨.hbm, 126, rfl⟩
abbrev main_v78 : Ref sig .tc := ⟨.hbm, 127, rfl⟩
abbrev main_v79 : Ref sig .tc := ⟨.hbm, 128, rfl⟩
abbrev main_c_17 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_cst_18 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_cst_19 : Ref sig .tc := ⟨.hbm, 139, rfl⟩
abbrev main_v88 : Ref sig .tc := ⟨.hbm, 140, rfl⟩
abbrev main_cst_20 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_cst_21 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_call2_cst : Ref sig .tc := ⟨.hbm, 157, rfl⟩
abbrev main_call2_v0 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_cst_22 : Ref sig .tc := ⟨.hbm, 164, rfl⟩
abbrev main_v108 : Ref sig .tc := ⟨.hbm, 165, rfl⟩
abbrev main_v109 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_v117 : Ref sig .tc := ⟨.hbm, 174, rfl⟩
abbrev main_cst_23 : Ref sig .tc := ⟨.hbm, 175, rfl⟩
abbrev main_v118 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  bcast_S_S20000x64 : S_.BroadcastsInDim S20000x64 (![] : Fin 0 → Fin S20000x64.rank)
  bcast_S_S20000 : S_.BroadcastsInDim S20000 (![] : Fin 0 → Fin S20000.rank)
  bcast_S20000_S20000x1_0 : S20000.BroadcastsInDim S20000x1 (![0] : Fin 1 → Fin S20000x1.rank)
  bcast_S20000x1_S20000x64_0_1 : S20000x1.BroadcastsInDim S20000x64 (![0, 1] : Fin 2 → Fin S20000x64.rank)
  bcast_S1x128_S20000x128_0_1 : S1x128.BroadcastsInDim S20000x128 (![0, 1] : Fin 2 → Fin S20000x128.rank)
  bcast_S_S400000 : S_.BroadcastsInDim S400000 (![] : Fin 0 → Fin S400000.rank)
  bcast_S400000_S400000x1_0 : S400000.BroadcastsInDim S400000x1 (![0] : Fin 1 → Fin S400000x1.rank)
  bcast_S_S20000x128 : S_.BroadcastsInDim S20000x128 (![] : Fin 0 → Fin S20000x128.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  bcast_S1x1_S20000x1_0_1 : S1x1.BroadcastsInDim S20000x1 (![0, 1] : Fin 2 → Fin S20000x1.rank)
  bcast_S_S20000x1 : S_.BroadcastsInDim S20000x1 (![] : Fin 0 → Fin S20000x1.rank)
  gather_S20000x64_S1600000x1_S1600000x64_1_0_n_n_0_1_164_wf : GatherDims.WF S20000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x128_S100000x128_1_0_0_1_n_n_wf : DotDims.WF S100000x64 S64x128 S100000x128 [1] [0] [0] [1] [] []
  gather_S100000x64_S1600000x1_S1600000x64_1_0_n_n_0_1_164_wf : GatherDims.WF S100000x64 S1600000x1 S1600000x64 [1] [0] [] [0] [] 1 ![1, 64]
  scatter_S20000x64_S1600000x1_S1600000x64_1_0_0_1_wf : ScatterDims.WF S20000x64 S1600000x1 S1600000x64 [1] [0] [0] 1
  scatter_S20000_S1600000x1_S1600000_n_0_0_1_wf : ScatterDims.WF S20000 S1600000x1 S1600000 [] [0] [0] 1
  dot_S20000x64_S64x128_S20000x128_1_0_0_1_n_n_wf : DotDims.WF S20000x64 S64x128 S20000x128 [1] [0] [0] [1] [] []
  gather_S20000x64_S400000x1_S400000x64_1_0_n_n_0_1_164_wf : GatherDims.WF S20000x64 S400000x1 S400000x64 [1] [0] [] [0] [] 1 ![1, 64]
  scatter_S20000x64_S400000x1_S400000x64_1_0_0_1_wf : ScatterDims.WF S20000x64 S400000x1 S400000x64 [1] [0] [0] 1
  scatter_S20000_S400000x1_S400000_n_0_0_1_wf : ScatterDims.WF S20000 S400000x1 S400000 [] [0] [0] 1
  dot_S100000x128_S128x1_S100000x1_1_0_0_1_n_n_wf : DotDims.WF S100000x128 S128x1 S100000x1 [1] [0] [0] [1] [] []
  dot_S20000x128_S128x1_S20000x1_1_0_0_1_n_n_wf : DotDims.WF S20000x128 S128x1 S20000x1 [1] [0] [0] [1] [] []

variable [Facts₀]

def gather_S20000x64_S1600000x1_S1600000x64_1_0_n_n_0_1_164 : GatherDims S20000x64 S1600000x1 S1600000x64 where
  offsetDims := [1]
  collapsedSliceDims := [0]
  operandBatchingDims := []
  startIndicesBatchingDims := []
  startIndexMap := [0]
  indexVectorDim := 1
  sliceSizes := ![1, 64]
  wf := gather_S20000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S20000x64_S1600000x1_S1600000x64_1_0_0_1 : ScatterDims S20000x64 S1600000x1 S1600000x64 where
  updateWindowDims := [1]
  insertedWindowDims := [0]
  scatterDimsToOperandDims := [0]
  indexVectorDim := 1
  wf := scatter_S20000x64_S1600000x1_S1600000x64_1_0_0_1_wf
def scatter_S20000_S1600000x1_S1600000_n_0_0_1 : ScatterDims S20000 S1600000x1 S1600000 where
  updateWindowDims := []
  insertedWindowDims := [0]
  scatterDimsToOperandDims := [0]
  indexVectorDim := 1
  wf := scatter_S20000_S1600000x1_S1600000_n_0_0_1_wf
def dot_S20000x64_S64x128_S20000x128_1_0_0_1_n_n : DotDims S20000x64 S64x128 S20000x128 where
  lhsContracting := [1]
  rhsContracting := [0]
  lhsNonContracting := [0]
  rhsNonContracting := [1]
  lhsBatch := []
  rhsBatch := []
  wf := dot_S20000x64_S64x128_S20000x128_1_0_0_1_n_n_wf
def gather_S20000x64_S400000x1_S400000x64_1_0_n_n_0_1_164 : GatherDims S20000x64 S400000x1 S400000x64 where
  offsetDims := [1]
  collapsedSliceDims := [0]
  operandBatchingDims := []
  startIndicesBatchingDims := []
  startIndexMap := [0]
  indexVectorDim := 1
  sliceSizes := ![1, 64]
  wf := gather_S20000x64_S400000x1_S400000x64_1_0_n_n_0_1_164_wf
def scatter_S20000x64_S400000x1_S400000x64_1_0_0_1 : ScatterDims S20000x64 S400000x1 S400000x64 where
  updateWindowDims := [1]
  insertedWindowDims := [0]
  scatterDimsToOperandDims := [0]
  indexVectorDim := 1
  wf := scatter_S20000x64_S400000x1_S400000x64_1_0_0_1_wf
def scatter_S20000_S400000x1_S400000_n_0_0_1 : ScatterDims S20000 S400000x1 S400000 where
  updateWindowDims := []
  insertedWindowDims := [0]
  scatterDimsToOperandDims := [0]
  indexVectorDim := 1
  wf := scatter_S20000_S400000x1_S400000_n_0_0_1_wf
def dot_S100000x128_S128x1_S100000x1_1_0_0_1_n_n : DotDims S100000x128 S128x1 S100000x1 where
  lhsContracting := [1]
  rhsContracting := [0]
  lhsNonContracting := [0]
  rhsNonContracting := [1]
  lhsBatch := []
  rhsBatch := []
  wf := dot_S100000x128_S128x1_S100000x1_1_0_0_1_n_n_wf
def dot_S20000x128_S128x1_S20000x1_1_0_0_1_n_n : DotDims S20000x128 S128x1 S20000x1 where
  lhsContracting := [1]
  rhsContracting := [0]
  lhsNonContracting := [0]
  rhsNonContracting := [1]
  lhsBatch := []
  rhsBatch := []
  wf := dot_S20000x128_S128x1_S20000x1_1_0_0_1_n_n_wf

class Facts : Prop extends Facts₀ where

variable [Facts]
-- ==== Proof.KernelRun.lean ====
/-
  The idealized kernel program's run with its three result arrays named: every weakly fair execution terminates
  without a fault, each result buffer ends holding what the last segment boundary's contents give it, and every
  argument array ends as launched.
-/
import proofs.«154493_j32822140076341_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the three results at the final boundary's contents, the arguments as launched. -/
theorem run_results : θ_run defs (onTc (τ := τ) (main (F := F))) ⟨m, fun _ => 0, ρ⟩ (fun r => ∀ c : Dev nD,
      r.2.mem ((c.tc : Thread nD τ).loc main_v86) = W6 m ρ c (Proc.devRef .tc main_v86)
      ∧ r.2.mem ((c.tc : Thread nD τ).loc main_v79) = W6 m ρ c (Proc.devRef .tc main_v79)
      ∧ r.2.mem ((c.tc : Thread nD τ).loc main_v83) = W6 m ρ c (Proc.devRef .tc main_v83)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v86 (by decide)),
       h c _ (mem_uc main_v79 (by decide)),
       h c _ (mem_uc main_v83 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c)⟩)

end Cert.KernelIdeal.Results

end
-- ==== Proof.SageSpec.lean ====
/-
  The mathematics of one relation's node update, on the extended reals, in coordinates.

  For a destination node r and an output channel k the combine is
      (∑ⱼ mean (r, j) · Wl (j, k) + ∑ⱼ x (r, j) · Wr (j, k)) + b k,
  grouped exactly so.  A head reads a node's 128 rectified channels against one column of weights, adds its bias,
  and applies the leaky rectifier with slope α: y where y > 0, α · y elsewhere.  The two-relation update adds two
  combines and rectifies the sum.  No algebraic law is used anywhere: every sum is taken in the same order and every
  addition in the same grouping by both programs.
-/
import Idealize.ShloMosaic.Lib.ValueIdx
import Idealize.ShloMosaic.PureOps.Ideal.Laws

noncomputable section

namespace Cert.Sage

open Idealize.ShloMosaic Idealize.ShloMosaic.ValueIdx

/-- The zero of the format, as the extended real it denotes. -/
abbrev z32 : Ideal .f32 := Ideal.ofBits .f32 0x00000000#32

variable {N : ℕ}

/-- Channel k of node r after one relation's combine. -/
def combine (mean x : FVec Ideal ⟨2, ![N, 64]⟩ .f32) (Wl Wr : FVec Ideal ⟨2, ![64, 128]⟩ .f32)
    (b : Fin 128 → Ideal .f32) (r : Fin N) (k : Fin 128) : Ideal .f32 :=
  (∑ j : Fin 64, mean (ix2 r j) * Wl (ix2 j k) + ∑ j : Fin 64, x (ix2 r j) * Wr (ix2 j k)) + b k

/-- The leaky rectifier with slope a. -/
def leaky (a y : Ideal .f32) : Ideal .f32 :=
  Scalar.select (FloatOps.cmpf .ogt y z32) y (a * y)

/-- The head's scalar for node r: the rectified channels against the weight column, plus the bias, through the
    leaky rectifier. -/
def headAt (h : Fin N → Fin 128 → Ideal .f32) (Wlin : FVec Ideal ⟨2, ![128, 1]⟩ .f32)
    (blin alpha : Ideal .f32) (r : Fin N) : Ideal .f32 :=
  leaky alpha (∑ k : Fin 128, max (h r k) z32 * Wlin (ix2 k 0) + blin)

/-- The head's N×1 result array. -/
def headArr (mean x : FVec Ideal ⟨2, ![N, 64]⟩ .f32) (Wl Wr : FVec Ideal ⟨2, ![64, 128]⟩ .f32)
    (b : Fin 128 → Ideal .f32) (Wlin : FVec Ideal ⟨2, ![128, 1]⟩ .f32)
    (blin alpha : Ideal .f32) : FVec Ideal ⟨2, ![N, 1]⟩ .f32 :=
  fun i => headAt (combine mean x Wl Wr b) Wlin blin alpha (i 0)

/-- The two-relation update's N×128 result array: both combines read the same node features x. -/
def pairArr (mean1 x : FVec Ideal ⟨2, ![N, 64]⟩ .f32) (Wl1 Wr1 : FVec Ideal ⟨2, ![64, 128]⟩ .f32)
    (b1 : Fin 128 → Ideal .f32) (mean2 : FVec Ideal ⟨2, ![N, 64]⟩ .f32)
    (Wl2 Wr2 : FVec Ideal ⟨2, ![64, 128]⟩ .f32) (b2 : Fin 128 → Ideal .f32) : FVec Ideal ⟨2, ![N, 128]⟩ .f32 :=
  fun i => max (combine mean1 x Wl1 Wr1 b1 (i 0) (i 1) + combine mean2 x Wl2 Wr2 b2 (i 0) (i 1)) z32

theorem headArr_ix2 (mean x : FVec Ideal ⟨2, ![N, 64]⟩ .f32) (Wl Wr : FVec Ideal ⟨2, ![64, 128]⟩ .f32)
    (b : Fin 128 → Ideal .f32) (Wlin : FVec Ideal ⟨2, ![128, 1]⟩ .f32)
    (blin alpha : Ideal .f32) (r : Fin N) (u : Fin 1) :
    headArr mean x Wl Wr b Wlin blin alpha (ix2 r u) = headAt (combine mean x Wl Wr b) Wlin blin alpha r := rfl

theorem pairArr_ix2 (mean1 x : FVec Ideal ⟨2, ![N, 64]⟩ .f32) (Wl1 Wr1 : FVec Ideal ⟨2, ![64, 128]⟩ .f32)
    (b1 : Fin 128 → Ideal .f32) (mean2 : FVec Ideal ⟨2, ![N, 64]⟩ .f32)
    (Wl2 Wr2 : FVec Ideal ⟨2, ![64, 128]⟩ .f32) (b2 : Fin 128 → Ideal .f32) (r : Fin N) (k : Fin 128) :
    pairArr mean1 x Wl1 Wr1 b1 mean2 Wl2 Wr2 b2 (ix2 r k)
      = max (combine mean1 x Wl1 Wr1 b1 r k + combine mean2 x Wl2 Wr2 b2 r k) z32 := rfl

end Cert.Sage

end
-- ==== Proof.LibDense.lean ====
/-
  A plain matrix product read at an index, at the exact instance: for the dimension numbers "contract the left
  operand's second axis with the right operand's first", entry (p, q) of the product into a zero accumulator is
  ∑ₖ x (p, k) · w (k, q); the host's product of the same operands is the same sum.
-/
import Idealize.ShloMosaic.Lib.ValueIdx
import Idealize.ShloMosaic.PureOps.Ideal.Laws

noncomputable section

namespace Cert.LibDense

open Idealize.ShloMosaic Idealize.ShloMosaic.ValueIdx

variable {M K N : ℕ} {φ₁ φ₂ : FTy}

/-- The left operand's index at output (p, q) and contraction coordinate k is (p, k). -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output (p, q) and contraction coordinate k is (k, q). -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A kernel's matrix product into the zero accumulator, at (p, q). -/
theorem plain_matmul_apply (prec : Option ContractPrecision) (x : FVec Ideal ⟨2, ![M, K]⟩ φ₁) (w : FVec Ideal ⟨2, ![K, N]⟩ φ₂)
    (p : Fin M) (q : Fin N) :
    FloatOps.matmul (DotDims.plain M K N) prec x w (constant ⟨2, ![M, N]⟩ .f32 0x00000000#32) (ix2 p q)
      = ∑ k : Fin K, x (ix2 p k) * w (ix2 k q) := by
  rw [Ideal.matmul_constant_zero_apply, ← Equiv.sum_comp (contrEquiv1 (DotDims.plain M K N) K rfl rfl).symm]
  refine Finset.sum_congr rfl fun k _ => ?_
  rw [plain_lhsIdx, plain_rhsIdx]

/-- The host's product of the same operands, at (p, q). -/
theorem plain_dotGeneral_apply (prec : Option ContractPrecision) (sched : HostSchedule) (x : FVec Ideal ⟨2, ![M, K]⟩ φ₁)
    (w : FVec Ideal ⟨2, ![K, N]⟩ φ₂) (p : Fin M) (q : Fin N) :
    FloatOps.dotGeneral (DotDims.plain M K N) prec sched x w (ix2 p q) = ∑ k : Fin K, x (ix2 p k) * w (ix2 k q) := by
  rw [Ideal.dotGeneral_apply, ← Equiv.sum_comp (contrEquiv1 (DotDims.plain M K N) K rfl rfl).symm]
  refine Finset.sum_congr rfl fun k _ => ?_
  rw [plain_lhsIdx, plain_rhsIdx]

end Cert.LibDense

end
-- ==== Proof.Pay0.lean ====
/-
  The first head body's stored value, read at one entry.  With the format changes the identity and each matrix
  product into a zero accumulator the plain sum over the contracted axis, row p of the stored block is the leaky
  rectifier of (∑ₖ max (combine p k) 0 · Wlin (k, 0)) + blin, the combine taken over the row's two 64-entry inputs.
-/
import proofs.«154493_j32822140076341_2_alg».proof.Proof.Gen.KernelIdeal.Skeleton
import proofs.«154493_j32822140076341_2_alg».proof.Proof.SageSpec
import proofs.«154493_j32822140076341_2_alg».proof.Proof.LibDense
import Idealize.ShloMosaic.Lib.Pipeline.Value
import Idealize.ShloMosaic.Lib.ValueLayout

noncomputable section

namespace Cert.Sage

open Cert.KernelIdeal Cert.KernelIdeal.Gen Idealize.ShloMosaic Idealize.ShloMosaic.ValueIdx

/-- The 5000×64 by 64×128 product into zero, at (p, k). -/
theorem mm0_in (a : FVec Ideal S5000x64 .bf16) (w : FVec Ideal S64x128 .bf16) (p : Fin 5000) (k : Fin 128) :
    matmul dot_S5000x64_S64x128_S5000x128_1_0_0_1_n_n none a w (constant S5000x128 .f32 0x00000000#32) (ix2 p k)
      = ∑ j : Fin 64, a (ix2 p j) * w (ix2 j k) :=
  LibDense.plain_matmul_apply none a w p k

/-- The 5000×128 by 128×1 product into zero, at (p, u). -/
theorem mm0_out (a : FVec Ideal S5000x128 .bf16) (w : FVec Ideal S128x1 .bf16) (p : Fin 5000) (u : Fin 1) :
    matmul dot_S5000x128_S128x1_S5000x1_1_0_0_1_n_n none a w (constant S5000x1 .f32 0x00000000#32) (ix2 p u)
      = ∑ k : Fin 128, a (ix2 p k) * w (ix2 k u) :=
  LibDense.plain_matmul_apply none a w p u

/-- The one entry of a 1×1 array, extracted. -/
theorem extract11 (x : FVec Ideal S1x1 .f32) : extractAt ![0, 0] x inpos_S1x1_p0_0 = x (ix2 0 0) :=
  congrArg x (funext fun a => Fin.ext (by match a with | ⟨0, _⟩ => rfl | ⟨1, _⟩ => rfl))

/-- Row p of the stored block. -/
theorem k0_pay1_apply (x0 x1 : Vec Ideal S5000x64 .f32) (x2 x3 : Vec Ideal S64x128 .f32) (x4 : Vec Ideal S1x128 .f32)
    (x5 : Vec Ideal S128x1 .f32) (x6 x7 : Vec Ideal S1x1 .f32) (p : Fin 5000) (u : Fin 1) :
    k0_pay1 (F := Ideal) x0 x1 x2 x3 x4 x5 x6 x7 (ix2 p u)
      = leaky (x7 (ix2 0 0)) (∑ k : Fin 128, max ((∑ j : Fin 64, x0 (ix2 p j) * x2 (ix2 j k)
          + ∑ j : Fin 64, x1 (ix2 p j) * x3 (ix2 j k)) + x4 (ix2 0 k)) z32 * x5 (ix2 k u) + x6 (ix2 0 u)) := by
  unfold k0_pay1
  simp only [shapeCast_self, select_apply, cmpf_apply, mulf_apply, addf_apply, broadcast_apply, maximumf_apply,
    mm0_in, mm0_out, truncf_apply, broadcastTo_1b_ab_apply, extract11]
  rfl

end Cert.Sage

end
-- ==== Proof.Final0.lean ====
/-
  The first head region (100000 nodes in 20 blocks of 5000 rows): what each grid point writes back is its block of the
  head's result array, and the blocks cover the array, so after the region the result array IS the head's array of the
  contents the region found in its eight operand arrays.

  Block t of a row-blocked operand holds rows 5000·t … 5000·t + 4999; the weight, bias and slope operands are one block
  each, the same at every point.  So row p of point t's stored block is the head's scalar for node 5000·t + p.
-/
import proofs.«154493_j32822140076341_2_alg».proof.Proof.Gen.KernelIdeal.Frame
import proofs.«154493_j32822140076341_2_alg».proof.Proof.Pay0

set_option maxRecDepth 16384

noncomputable section

namespace Cert.Sage

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl

/-- The printed block-index maps over the 20 grid points: the two row-blocked operands and the result move with the
    point along the rows, every other operand stays at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

theorem lt20 (t : Fin cfg0.N) : t.val < 20 := t.isLt

/-- Row p of block t is node 5000·t + p. -/
def node0 (t : Fin cfg0.N) (p : Fin 5000) : Fin 100000 :=
  ⟨t.val * 5000 + p.val, by have := lt20 t; have := p.isLt; omega⟩

theorem emb0_0 (t : Fin cfg0.N) (p : Fin 5000) (j : Fin 64) :
    ((cfg0.win 0).blk t).view.emb (ix2 p j) = ix2 (node0 t p) j := by
  obtain ⟨e0, e1, -⟩ := idx_facts0 t
  funext a; apply Fin.ext
  match a with
  | ⟨0, _⟩ => show win0_0.index t (0 : Fin 2) * 5000 + 1 * p.val = t.val * 5000 + p.val; omega
  | ⟨1, _⟩ => show win0_0.index t (1 : Fin 2) * 64 + 1 * j.val = j.val; omega

theorem emb0_1 (t : Fin cfg0.N) (p : Fin 5000) (j : Fin 64) :
    ((cfg0.win 1).blk t).view.emb (ix2 p j) = ix2 (node0 t p) j := by
  obtain ⟨-, -, e0, e1, -⟩ := idx_facts0 t
  funext a; apply Fin.ext
  match a with
  | ⟨0, _⟩ => show win0_1.index t (0 : Fin 2) * 5000 + 1 * p.val = t.val * 5000 + p.val; omega
  | ⟨1, _⟩ => show win0_1.index t (1 : Fin 2) * 64 + 1 * j.val = j.val; omega

theorem emb0_2 (t : Fin cfg0.N) (j : Fin 64) (k : Fin 128) :
    ((cfg0.win 2).blk t).view.emb (ix2 j k) = ix2 j k := by
  obtain ⟨-, -, -, -, e0, e1, -⟩ := idx_facts0 t
  funext a; apply Fin.ext
  match a with
  | ⟨0, _⟩ => show win0_2.index t (0 : Fin 2) * 64 + 1 * j.val = j.val; omega
  | ⟨1, _⟩ => show win0_2.index t (1 : Fin 2) * 128 + 1 * k.val = k.val; omega

theorem emb0_3 (t : Fin cfg0.N) (j : Fin 64) (k : Fin 128) :
    ((cfg0.win 3).blk t).view.emb (ix2 j k) = ix2 j k := by
  obtain ⟨-, -, -, -, -, -, e0, e1, -⟩ := idx_facts0 t
  funext a; apply Fin.ext
  match a with
  | ⟨0, _⟩ => show win0_3.index t (0 : Fin 2) * 64 + 1 * j.val = j.val; omega
  | ⟨1, _⟩ => show win0_3.index t (1 : Fin 2) * 128 + 1 * k.val = k.val; omega

theorem emb0_4 (t : Fin cfg0.N) (u : Fin 1) (k : Fin 128) :
    ((cfg0.win 4).blk t).view.emb (ix2 u k) = ix2 u k := by
  obtain ⟨-, -, -, -, -, -, -, -, e0, e1, -⟩ := idx_facts0 t
  funext a; apply Fin.ext
  match a with
  | ⟨0, _⟩ => show win0_4.index t (0 : Fin 2) * 1 + 1 * u.val = u.val; omega
  | ⟨1, _⟩ => show win0_4.index t (1 : Fin 2) * 128 + 1 * k.val = k.val; omega

theorem emb0_5 (t : Fin cfg0.N) (k : Fin 128) (u : Fin 1) :
    ((cfg0.win 5).blk t).view.emb (ix2 k u) = ix2 k u := by
  obtain ⟨-, -, -, -, -, -, -, -, -, -, e0, e1, -⟩ := idx_facts0 t
  funext a; apply Fin.ext
  match a with
  | ⟨0, _⟩ => show win0_5.index t (0 : Fin 2) * 128 + 1 * k.val = k.val; omega
  | ⟨1, _⟩ => show win0_5.index t (1 : Fin 2) * 1 + 1 * u.val = u.val; omega

theorem emb0_6 (t : Fin cfg0.N) (u v : Fin 1) :
    ((cfg0.win 6).blk t).view.emb (ix2 u v) = ix2 u v := by
  obtain ⟨-, -, -, -, -, -, -, -, -, -, -, -, e0, e1, -⟩ := idx_facts0 t
  funext a; apply Fin.ext
  match a with
  | ⟨0, _⟩ => show win0_6.index t (0 : Fin 2) * 1 + 1 * u.val = u.val; omega
  | ⟨1, _⟩ => show win0_6.index t (1 : Fin 2) * 1 + 1 * v.val = v.val; omega

theorem emb0_7 (t : Fin cfg0.N) (u v : Fin 1) :
    ((cfg0.win 7).blk t).view.emb (ix2 u v) = ix2 u v := by
  obtain ⟨-, -, -, -, -, -, -, -, -, -, -, -, -, -, e0, e1, -⟩ := idx_facts0 t
  funext a; apply Fin.ext
  match a with
  | ⟨0, _⟩ => show win0_7.index t (0 : Fin 2) * 1 + 1 * u.val = u.val; omega
  | ⟨1, _⟩ => show win0_7.index t (1 : Fin 2) * 1 + 1 * v.val = v.val; omega

theorem emb0_8 (t : Fin cfg0.N) (y : S5000x1.Idx) (p : Fin 5000) (hp : (y 0).val = p.val) :
    ((cfg0.win 8).blk t).view.emb y = ix2 (node0 t p) 0 := by
  obtain ⟨-, -, -, -, -, -, -, -, -, -, -, -, -, -, -, -, e0, e1⟩ := idx_facts0 t
  have h1 : (y 1).val < 1 := (y 1).isLt
  funext a; apply Fin.ext
  match a with
  | ⟨0, _⟩ => show win0_8.index t (0 : Fin 2) * 5000 + 1 * (y 0).val = t.val * 5000 + p.val; omega
  | ⟨1, _⟩ => show win0_8.index t (1 : Fin 2) * 1 + 1 * (y 1).val = 0; omega

/-! The operands' blocks at point t, read at an entry: the region-entry array at the entry's place in the array. -/

theorem blk0_0 (c : Dev nD) (t : Fin cfg0.N) (p : Fin 5000) (j : Fin 64) :
    iblk0 V c 0 t (ix2 p j) = V c main_v18 (ix2 (node0 t p) j) := congrArg (V c main_v18) (emb0_0 t p j)
theorem blk0_1 (c : Dev nD) (t : Fin cfg0.N) (p : Fin 5000) (j : Fin 64) :
    iblk0 V c 1 t (ix2 p j) = V c main_arg1 (ix2 (node0 t p) j) := congrArg (V c main_arg1) (emb0_1 t p j)
theorem blk0_2 (c : Dev nD) (t : Fin cfg0.N) (j : Fin 64) (k : Fin 128) :
    iblk0 V c 2 t (ix2 j k) = V c main_arg11 (ix2 j k) := congrArg (V c main_arg11) (emb0_2 t j k)
theorem blk0_3 (c : Dev nD) (t : Fin cfg0.N) (j : Fin 64) (k : Fin 128) :
    iblk0 V c 3 t (ix2 j k) = V c main_arg12 (ix2 j k) := congrArg (V c main_arg12) (emb0_3 t j k)
theorem blk0_4 (c : Dev nD) (t : Fin cfg0.N) (u : Fin 1) (k : Fin 128) :
    iblk0 V c 4 t (ix2 u k) = V c main_v76 (ix2 u k) := congrArg (V c main_v76) (emb0_4 t u k)
theorem blk0_5 (c : Dev nD) (t : Fin cfg0.N) (k : Fin 128) (u : Fin 1) :
    iblk0 V c 5 t (ix2 k u) = V c main_arg23 (ix2 k u) := congrArg (V c main_arg23) (emb0_5 t k u)
theorem blk0_6 (c : Dev nD) (t : Fin cfg0.N) (u v : Fin 1) :
    iblk0 V c 6 t (ix2 u v) = V c main_v77 (ix2 u v) := congrArg (V c main_v77) (emb0_6 t u v)
theorem blk0_7 (c : Dev nD) (t : Fin cfg0.N) (u v : Fin 1) :
    iblk0 V c 7 t (ix2 u v) = V c main_v78 (ix2 u v) := congrArg (V c main_v78) (emb0_7 t u v)

/-- Row p of the stored block over plain vectors, p named apart from the index it is read off. -/
theorem k0_pay1_row (x0 x1 : Vec Ideal S5000x64 .f32) (x2 x3 : Vec Ideal S64x128 .f32) (x4 : Vec Ideal S1x128 .f32)
    (x5 : Vec Ideal S128x1 .f32) (x6 x7 : Vec Ideal S1x1 .f32) (y : S5000x1.Idx) (p : Fin 5000) (hp : (y 0).val = p.val) :
    k0_pay1 (F := Ideal) x0 x1 x2 x3 x4 x5 x6 x7 y
      = leaky (x7 (ix2 0 0)) (∑ k : Fin 128, max ((∑ j : Fin 64, x0 (ix2 p j) * x2 (ix2 j k)
          + ∑ j : Fin 64, x1 (ix2 p j) * x3 (ix2 j k)) + x4 (ix2 0 k)) z32 * x5 (ix2 k 0) + x6 (ix2 0 0)) := by
  obtain ⟨p', u, rfl⟩ : ∃ (p' : Fin 5000) (u : Fin 1), y = ix2 p' u := ⟨y 0, y 1, eq_ix2 y⟩
  obtain rfl : u = 0 := Subsingleton.elim _ _
  obtain rfl : p' = p := Fin.ext hp
  exact k0_pay1_apply x0 x1 x2 x3 x4 x5 x6 x7 p' 0

/-- What grid point t writes back is block t of the head's array of the operand arrays as the region finds them. -/
theorem flushed0 (c : Dev nD) (t : Fin cfg0.N) :
    (dat0 V c).flushed 8 t = ((cfg0.win 8).blk t).view.read (Elt Ideal)
      (headArr (N := 100000) (V c main_v18) (V c main_arg1) (V c main_arg11) (V c main_arg12) (fun k => V c main_v76 (ix2 0 k))
        (V c main_arg23) (V c main_v77 (ix2 0 0)) (V c main_v78 (ix2 0 0))) := by
  show (cfg0.win 8).cut (grid0.coords t) ((dat0 V c).after 8 t) = _
  rw [after0_8]
  unfold out0_8
  rw [View.canon_unit_zero zero2]
  simp only [View.ld_unit_zero (S := S5000x64) zero2, View.ld_unit_zero (S := S64x128) zero2, View.ld_unit_zero (S := S1x128) zero2,
    View.ld_unit_zero (S := S128x1) zero2, View.ld_unit_zero (S := S1x1) zero2]
  funext y
  have hlt : (y 0).val < 5000 := (y 0).isLt
  refine (k0_pay1_row (iblk0 V c 0 t) (iblk0 V c 1 t) (iblk0 V c 2 t) (iblk0 V c 3 t) (iblk0 V c 4 t) (iblk0 V c 5 t)
    (iblk0 V c 6 t) (iblk0 V c 7 t) y ⟨(y 0).val, hlt⟩ rfl).trans ?_
  show _ = headArr (N := 100000) (V c main_v18) (V c main_arg1) (V c main_arg11) (V c main_arg12) (fun k => V c main_v76 (ix2 0 k))
        (V c main_arg23) (V c main_v77 (ix2 0 0)) (V c main_v78 (ix2 0 0)) (((cfg0.win 8).blk t).view.emb y)
  rw [emb0_8 t y ⟨(y 0).val, hlt⟩ rfl, headArr_ix2]
  unfold headAt combine
  simp only [blk0_0, blk0_1, blk0_2, blk0_3, blk0_4, blk0_5, blk0_6, blk0_7]

/-- An index of the result array is in point t's block iff each coordinate is in the block's range on its axis. -/
theorem mem_blk0 (t : Fin cfg0.N) (i : S100000x1.Idx) :
    i ∈ ((cfg0.win 8).blk t).view.set ↔ ∀ a : Fin 2, win0_8.index t a * S5000x1.size a ≤ (i a).val
      ∧ (i a).val < win0_8.index t a * S5000x1.size a + S5000x1.size a := by
  show i ∈ ((View.whole main_v79).slice (win0_8.rect t)).set ↔ _
  rw [View.set_slice_whole, Rect.mem_set_unit]
  exact Iff.rfl

/-- Node r lies in the block of point r / 5000: the blocks cover the result array. -/
theorem cover0 (i : S100000x1.Idx) :
    ∃ t : Fin cfg0.N, (cfg0.win 8).flush t = true ∧ i ∈ ((cfg0.win 8).blk t).view.set := by
  have hi0 : (i 0).val < 100000 := (i 0).isLt
  have hi1 : (i 1).val < 1 := (i 1).isLt
  have ht : (i 0).val / 5000 < 20 := by omega
  obtain ⟨-, -, -, -, -, -, -, -, -, -, -, -, -, -, -, -, e0, e1⟩ := idx_facts0 ⟨(i 0).val / 5000, ht⟩
  refine ⟨⟨(i 0).val / 5000, ht⟩, flush0_8 _, ?_⟩
  rw [mem_blk0]
  intro a
  match a with
  | ⟨0, _⟩ =>
    show win0_8.index ⟨(i 0).val / 5000, ht⟩ (0 : Fin 2) * 5000 ≤ (i 0).val
      ∧ (i 0).val < win0_8.index ⟨(i 0).val / 5000, ht⟩ (0 : Fin 2) * 5000 + 5000
    rw [e0]; show (i 0).val / 5000 * 5000 ≤ (i 0).val ∧ (i 0).val < (i 0).val / 5000 * 5000 + 5000; omega
  | ⟨1, _⟩ =>
    show win0_8.index ⟨(i 0).val / 5000, ht⟩ (1 : Fin 2) * 1 ≤ (i 1).val
      ∧ (i 1).val < win0_8.index ⟨(i 0).val / 5000, ht⟩ (1 : Fin 2) * 1 + 1
    rw [e1]; omega

/-- After the region the result array is the head's array of the operand arrays as the region found them. -/
theorem final0 (c : Dev nD) :
    (dat0 V c).arrAt 8 cfg0.N
      = headArr (N := 100000) (V c main_v18) (V c main_arg1) (V c main_arg11) (V c main_arg12) (fun k => V c main_v76 (ix2 0 k))
          (V c main_arg23) (V c main_v77 (ix2 0 0)) (V c main_v78 (ix2 0 0)) :=
  (dat0 V c).arrAt_eq_of_cover 8 _ (fun t _ => flushed0 V c t) cover0

end Cert.Sage

end
-- ==== Proof.Pay1.lean ====
/-
  The second head body's stored value, read at one entry.  With the format changes the identity and each matrix
  product into a zero accumulator the plain sum over the contracted axis, row p of the stored block is the leaky
  rectifier of (∑ₖ max (combine p k) 0 · Wlin (k, 0)) + blin, the combine taken over the row's two 64-entry inputs.
-/
import proofs.«154493_j32822140076341_2_alg».proof.Proof.Gen.KernelIdeal.Skeleton
import proofs.«154493_j32822140076341_2_alg».proof.Proof.SageSpec
import proofs.«154493_j32822140076341_2_alg».proof.Proof.LibDense
import Idealize.ShloMosaic.Lib.Pipeline.Value
import Idealize.ShloMosaic.Lib.ValueLayout

noncomputable section

namespace Cert.Sage

open Cert.KernelIdeal Cert.KernelIdeal.Gen Idealize.ShloMosaic Idealize.ShloMosaic.ValueIdx

/-- The 4000×64 by 64×128 product into zero, at (p, k). -/
theorem mm1_in (a : FVec Ideal S4000x64 .bf16) (w : FVec Ideal S64x128 .bf16) (p : Fin 4000) (k : Fin 128) :
    matmul dot_S4000x64_S64x128_S4000x128_1_0_0_1_n_n none a w (constant S4000x128 .f32 0x00000000#32) (ix2 p k)
      = ∑ j : Fin 64, a (ix2 p j) * w (ix2 j k) :=
  LibDense.plain_matmul_apply none a w p k

/-- The 4000×128 by 128×1 product into zero, at (p, u). -/
theorem mm1_out (a : FVec Ideal S4000x128 .bf16) (w : FVec Ideal S128x1 .bf16) (p : Fin 4000) (u : Fin 1) :
    matmul dot_S4000x128_S128x1_S4000x1_1_0_0_1_n_n none a w (constant S4000x1 .f32 0x00000000#32) (ix2 p u)
      = ∑ k : Fin 128, a (ix2 p k) * w (ix2 k u) :=
  LibDense.plain_matmul_apply none a w p u

/-- The one entry of a 1×1 array, extracted. -/
theorem extract11_1 (x : FVec Ideal S1x1 .f32) : extractAt ![0, 0] x inpos_S1x1_p0_0 = x (ix2 0 0) :=
  congrArg x (funext fun a => Fin.ext (by match a with | ⟨0, _⟩ => rfl | ⟨1, _⟩ => rfl))

/-- Row p of the stored block. -/
theorem k1_pay1_apply (x0 x1 : Vec Ideal S4000x64 .f32) (x2 x3 : Vec Ideal S64x128 .f32) (x4 : Vec Ideal S1x128 .f32)
    (x5 : Vec Ideal S128x1 .f32) (x6 x7 : Vec Ideal S1x1 .f32) (p : Fin 4000) (u : Fin 1) :
    k1_pay1 (F := Ideal) x0 x1 x2 x3 x4 x5 x6 x7 (ix2 p u)
      = leaky (x7 (ix2 0 0)) (∑ k : Fin 128, max ((∑ j : Fin 64, x0 (ix2 p j) * x2 (ix2 j k)
          + ∑ j : Fin 64, x1 (ix2 p j) * x3 (ix2 j k)) + x4 (ix2 0 k)) z32 * x5 (ix2 k u) + x6 (ix2 0 u)) := by
  unfold k1_pay1
  simp only [shapeCast_self, select_apply, cmpf_apply, mulf_apply, addf_apply, broadcast_apply, maximumf_apply,
    mm1_in, mm1_out, truncf_apply, broadcastTo_1b_ab_apply, extract11_1]
  rfl

end Cert.Sage

end
-- ==== Proof.Final1.lean ====
/-
  The second head region (20000 nodes in 5 blocks of 4000 rows): what each grid point writes back is its block of the
  head's result array, and the blocks cover the array, so after the region the result array IS the head's array of the
  contents the region found in its eight operand arrays.

  Block t of a row-blocked operand holds rows 4000·t … 4000·t + 3999; the weight, bias and slope operands are one block
  each, the same at every point.  So row p of point t's stored block is the head's scalar for node 4000·t + p.
-/
import proofs.«154493_j32822140076341_2_alg».proof.Proof.Gen.KernelIdeal.Frame
import proofs.«154493_j32822140076341_2_alg».proof.Proof.Pay1

set_option maxRecDepth 16384

noncomputable section

namespace Cert.Sage

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_1 : (![0, 0] : Fin 2 → Nat) = fun _ => 0 := funext fun a => by fin_cases a <;> rfl

/-- The printed block-index maps over the 5 grid points: the two row-blocked operands and the result move with the
    point along the rows, every other operand stays at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = t.val ∧ win1_8.index t (1 : Fin 2) = 0 :=
  (by decide +kernel : ∀ t : Fin grid1.N, _)

theorem lt5 (t : Fin cfg1.N) : t.val < 5 := t.isLt

/-- Row p of block t is node 4000·t + p. -/
def node1 (t : Fin cfg1.N) (p : Fin 4000) : Fin 20000 :=
  ⟨t.val * 4000 + p.val, by have := lt5 t; have := p.isLt; omega⟩

theorem emb1_0 (t : Fin cfg1.N) (p : Fin 4000) (j : Fin 64) :
    ((cfg1.win 0).blk t).view.emb (ix2 p j) = ix2 (node1 t p) j := by
  obtain ⟨e0, e1, -⟩ := idx_facts1 t
  funext a; apply Fin.ext
  match a with
  | ⟨0, _⟩ => show win1_0.index t (0 : Fin 2) * 4000 + 1 * p.val = t.val * 4000 + p.val; omega
  | ⟨1, _⟩ => show win1_0.index t (1 : Fin 2) * 64 + 1 * j.val = j.val; omega

theorem emb1_1 (t : Fin cfg1.N) (p : Fin 4000) (j : Fin 64) :
    ((cfg1.win 1).blk t).view.emb (ix2 p j) = ix2 (node1 t p) j := by
  obtain ⟨-, -, e0, e1, -⟩ := idx_facts1 t
  funext a; apply Fin.ext
  match a with
  | ⟨0, _⟩ => show win1_1.index t (0 : Fin 2) * 4000 + 1 * p.val = t.val * 4000 + p.val; omega
  | ⟨1, _⟩ => show win1_1.index t (1 : Fin 2) * 64 + 1 * j.val = j.val; omega

theorem emb1_2 (t : Fin cfg1.N) (j : Fin 64) (k : Fin 128) :
    ((cfg1.win 2).blk t).view.emb (ix2 j k) = ix2 j k := by
  obtain ⟨-, -, -, -, e0, e1, -⟩ := idx_facts1 t
  funext a; apply Fin.ext
  match a with
  | ⟨0, _⟩ => show win1_2.index t (0 : Fin 2) * 64 + 1 * j.val = j.val; omega
  | ⟨1, _⟩ => show win1_2.index t (1 : Fin 2) * 128 + 1 * k.val = k.val; omega

theorem emb1_3 (t : Fin cfg1.N) (j : Fin 64) (k : Fin 128) :
    ((cfg1.win 3).blk t).view.emb (ix2 j k) = ix2 j k := by
  obtain ⟨-, -, -, -, -, -, e0, e1, -⟩ := idx_facts1 t
  funext a; apply Fin.ext
  match a with
  | ⟨0, _⟩ => show win1_3.index t (0 : Fin 2) * 64 + 1 * j.val = j.val; omega
  | ⟨1, _⟩ => show win1_3.index t (1 : Fin 2) * 128 + 1 * k.val = k.val; omega

theorem emb1_4 (t : Fin cfg1.N) (u : Fin 1) (k : Fin 128) :
    ((cfg1.win 4).blk t).view.emb (ix2 u k) = ix2 u k := by
  obtain ⟨-, -, -, -, -, -, -, -, e0, e1, -⟩ := idx_facts1 t
  funext a; apply Fin.ext
  match a with
  | ⟨0, _⟩ => show win1_4.index t (0 : Fin 2) * 1 + 1 * u.val = u.val; omega
  | ⟨1, _⟩ => show win1_4.index t (1 : Fin 2) * 128 + 1 * k.val = k.val; omega

theorem emb1_5 (t : Fin cfg1.N) (k : Fin 128) (u : Fin 1) :
    ((cfg1.win 5).blk t).view.emb (ix2 k u) = ix2 k u := by
  obtain ⟨-, -, -, -, -, -, -, -, -, -, e0, e1, -⟩ := idx_facts1 t
  funext a; apply Fin.ext
  match a with
  | ⟨0, _⟩ => show win1_5.index t (0 : Fin 2) * 128 + 1 * k.val = k.val; omega
  | ⟨1, _⟩ => show win1_5.index t (1 : Fin 2) * 1 + 1 * u.val = u.val; omega

theorem emb1_6 (t : Fin cfg1.N) (u v : Fin 1) :
    ((cfg1.win 6).blk t).view.emb (ix2 u v) = ix2 u v := by
  obtain ⟨-, -, -, -, -, -, -, -, -, -, -, -, e0, e1, -⟩ := idx_facts1 t
  funext a; apply Fin.ext
  match a with
  | ⟨0, _⟩ => show win1_6.index t (0 : Fin 2) * 1 + 1 * u.val = u.val; omega
  | ⟨1, _⟩ => show win1_6.index t (1 : Fin 2) * 1 + 1 * v.val = v.val; omega

theorem emb1_7 (t : Fin cfg1.N) (u v : Fin 1) :
    ((cfg1.win 7).blk t).view.emb (ix2 u v) = ix2 u v := by
  obtain ⟨-, -, -, -, -, -, -, -, -, -, -, -, -, -, e0, e1, -⟩ := idx_facts1 t
  funext a; apply Fin.ext
  match a with
  | ⟨0, _⟩ => show win1_7.index t (0 : Fin 2) * 1 + 1 * u.val = u.val; omega
  | ⟨1, _⟩ => show win1_7.index t (1 : Fin 2) * 1 + 1 * v.val = v.val; omega

theorem emb1_8 (t : Fin cfg1.N) (y : S4000x1.Idx) (p : Fin 4000) (hp : (y 0).val = p.val) :
    ((cfg1.win 8).blk t).view.emb y = ix2 (node1 t p) 0 := by
  obtain ⟨-, -, -, -, -, -, -, -, -, -, -, -, -, -, -, -, e0, e1⟩ := idx_facts1 t
  have h1 : (y 1).val < 1 := (y 1).isLt
  funext a; apply Fin.ext
  match a with
  | ⟨0, _⟩ => show win1_8.index t (0 : Fin 2) * 4000 + 1 * (y 0).val = t.val * 4000 + p.val; omega
  | ⟨1, _⟩ => show win1_8.index t (1 : Fin 2) * 1 + 1 * (y 1).val = 0; omega

/-! The operands' blocks at point t, read at an entry: the region-entry array at the entry's place in the array. -/

theorem blk1_0 (c : Dev nD) (t : Fin cfg1.N) (p : Fin 4000) (j : Fin 64) :
    iblk1 V c 0 t (ix2 p j) = V c main_v75 (ix2 (node1 t p) j) := congrArg (V c main_v75) (emb1_0 t p j)
theorem blk1_1 (c : Dev nD) (t : Fin cfg1.N) (p : Fin 4000) (j : Fin 64) :
    iblk1 V c 1 t (ix2 p j) = V c main_arg2 (ix2 (node1 t p) j) := congrArg (V c main_arg2) (emb1_1 t p j)
theorem blk1_2 (c : Dev nD) (t : Fin cfg1.N) (j : Fin 64) (k : Fin 128) :
    iblk1 V c 2 t (ix2 j k) = V c main_arg20 (ix2 j k) := congrArg (V c main_arg20) (emb1_2 t j k)
theorem blk1_3 (c : Dev nD) (t : Fin cfg1.N) (j : Fin 64) (k : Fin 128) :
    iblk1 V c 3 t (ix2 j k) = V c main_arg21 (ix2 j k) := congrArg (V c main_arg21) (emb1_3 t j k)
theorem blk1_4 (c : Dev nD) (t : Fin cfg1.N) (u : Fin 1) (k : Fin 128) :
    iblk1 V c 4 t (ix2 u k) = V c main_v80 (ix2 u k) := congrArg (V c main_v80) (emb1_4 t u k)
theorem blk1_5 (c : Dev nD) (t : Fin cfg1.N) (k : Fin 128) (u : Fin 1) :
    iblk1 V c 5 t (ix2 k u) = V c main_arg23 (ix2 k u) := congrArg (V c main_arg23) (emb1_5 t k u)
theorem blk1_6 (c : Dev nD) (t : Fin cfg1.N) (u v : Fin 1) :
    iblk1 V c 6 t (ix2 u v) = V c main_v81 (ix2 u v) := congrArg (V c main_v81) (emb1_6 t u v)
theorem blk1_7 (c : Dev nD) (t : Fin cfg1.N) (u v : Fin 1) :
    iblk1 V c 7 t (ix2 u v) = V c main_v82 (ix2 u v) := congrArg (V c main_v82) (emb1_7 t u v)

/-- Row p of the stored block over plain vectors, p named apart from the index it is read off. -/
theorem k1_pay1_row (x0 x1 : Vec Ideal S4000x64 .f32) (x2 x3 : Vec Ideal S64x128 .f32) (x4 : Vec Ideal S1x128 .f32)
    (x5 : Vec Ideal S128x1 .f32) (x6 x7 : Vec Ideal S1x1 .f32) (y : S4000x1.Idx) (p : Fin 4000) (hp : (y 0).val = p.val) :
    k1_pay1 (F := Ideal) x0 x1 x2 x3 x4 x5 x6 x7 y
      = leaky (x7 (ix2 0 0)) (∑ k : Fin 128, max ((∑ j : Fin 64, x0 (ix2 p j) * x2 (ix2 j k)
          + ∑ j : Fin 64, x1 (ix2 p j) * x3 (ix2 j k)) + x4 (ix2 0 k)) z32 * x5 (ix2 k 0) + x6 (ix2 0 0)) := by
  obtain ⟨p', u, rfl⟩ : ∃ (p' : Fin 4000) (u : Fin 1), y = ix2 p' u := ⟨y 0, y 1, eq_ix2 y⟩
  obtain rfl : u = 0 := Subsingleton.elim _ _
  obtain rfl : p' = p := Fin.ext hp
  exact k1_pay1_apply x0 x1 x2 x3 x4 x5 x6 x7 p' 0

/-- What grid point t writes back is block t of the head's array of the operand arrays as the region finds them. -/
theorem flushed1 (c : Dev nD) (t : Fin cfg1.N) :
    (dat1 V c).flushed 8 t = ((cfg1.win 8).blk t).view.read (Elt Ideal)
      (headArr (N := 20000) (V c main_v75) (V c main_arg2) (V c main_arg20) (V c main_arg21) (fun k => V c main_v80 (ix2 0 k))
        (V c main_arg23) (V c main_v81 (ix2 0 0)) (V c main_v82 (ix2 0 0))) := by
  show (cfg1.win 8).cut (grid1.coords t) ((dat1 V c).after 8 t) = _
  rw [after1_8]
  unfold out1_8
  rw [View.canon_unit_zero zero2_1]
  simp only [View.ld_unit_zero (S := S4000x64) zero2_1, View.ld_unit_zero (S := S64x128) zero2_1, View.ld_unit_zero (S := S1x128) zero2_1,
    View.ld_unit_zero (S := S128x1) zero2_1, View.ld_unit_zero (S := S1x1) zero2_1]
  funext y
  have hlt : (y 0).val < 4000 := (y 0).isLt
  refine (k1_pay1_row (iblk1 V c 0 t) (iblk1 V c 1 t) (iblk1 V c 2 t) (iblk1 V c 3 t) (iblk1 V c 4 t) (iblk1 V c 5 t)
    (iblk1 V c 6 t) (iblk1 V c 7 t) y ⟨(y 0).val, hlt⟩ rfl).trans ?_
  show _ = headArr (N := 20000) (V c main_v75) (V c main_arg2) (V c main_arg20) (V c main_arg21) (fun k => V c main_v80 (ix2 0 k))
        (V c main_arg23) (V c main_v81 (ix2 0 0)) (V c main_v82 (ix2 0 0)) (((cfg1.win 8).blk t).view.emb y)
  rw [emb1_8 t y ⟨(y 0).val, hlt⟩ rfl, headArr_ix2]
  unfold headAt combine
  simp only [blk1_0, blk1_1, blk1_2, blk1_3, blk1_4, blk1_5, blk1_6, blk1_7]

/-- An index of the result array is in point t's block iff each coordinate is in the block's range on its axis. -/
theorem mem_blk1 (t : Fin cfg1.N) (i : S20000x1.Idx) :
    i ∈ ((cfg1.win 8).blk t).view.set ↔ ∀ a : Fin 2, win1_8.index t a * S4000x1.size a ≤ (i a).val
      ∧ (i a).val < win1_8.index t a * S4000x1.size a + S4000x1.size a := by
  show i ∈ ((View.whole main_v83).slice (win1_8.rect t)).set ↔ _
  rw [View.set_slice_whole, Rect.mem_set_unit]
  exact Iff.rfl

/-- Node r lies in the block of point r / 4000: the blocks cover the result array. -/
theorem cover1 (i : S20000x1.Idx) :
    ∃ t : Fin cfg1.N, (cfg1.win 8).flush t = true ∧ i ∈ ((cfg1.win 8).blk t).view.set := by
  have hi0 : (i 0).val < 20000 := (i 0).isLt
  have hi1 : (i 1).val < 1 := (i 1).isLt
  have ht : (i 0).val / 4000 < 5 := by omega
  obtain ⟨-, -, -, -, -, -, -, -, -, -, -, -, -, -, -, -, e0, e1⟩ := idx_facts1 ⟨(i 0).val / 4000, ht⟩
  refine ⟨⟨(i 0).val / 4000, ht⟩, flush1_8 _, ?_⟩
  rw [mem_blk1]
  intro a
  match a with
  | ⟨0, _⟩ =>
    show win1_8.index ⟨(i 0).val / 4000, ht⟩ (0 : Fin 2) * 4000 ≤ (i 0).val
      ∧ (i 0).val < win1_8.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win1_8.index ⟨(i 0).val / 4000, ht⟩ (1 : Fin 2) * 1 ≤ (i 1).val
      ∧ (i 1).val < win1_8.index ⟨(i 0).val / 4000, ht⟩ (1 : Fin 2) * 1 + 1
    rw [e1]; omega

/-- After the region the result array is the head's array of the operand arrays as the region found them. -/
theorem final1 (c : Dev nD) :
    (dat1 V c).arrAt 8 cfg1.N
      = headArr (N := 20000) (V c main_v75) (V c main_arg2) (V c main_arg20) (V c main_arg21) (fun k => V c main_v80 (ix2 0 k))
          (V c main_arg23) (V c main_v81 (ix2 0 0)) (V c main_v82 (ix2 0 0)) :=
  (dat1 V c).arrAt_eq_of_cover 8 _ (fun t _ => flushed1 V c t) cover1

end Cert.Sage

end
-- ==== Proof.Pay2.lean ====
/-
  The two-relation body's stored value, read at one entry.  Entry (p, k) of the stored block is the rectified sum of
  the two relations' combines for row p and channel k: each combine the row's mean against its left weights plus the
  row's own features against its right weights, plus the bias at k; both combines read the same feature row.
-/
import proofs.«154493_j32822140076341_2_alg».proof.Proof.Gen.KernelIdeal.Skeleton
import proofs.«154493_j32822140076341_2_alg».proof.Proof.SageSpec
import proofs.«154493_j32822140076341_2_alg».proof.Proof.LibDense
import Idealize.ShloMosaic.Lib.Pipeline.Value
import Idealize.ShloMosaic.Lib.ValueLayout

noncomputable section

namespace Cert.Sage

open Cert.KernelIdeal Cert.KernelIdeal.Gen Idealize.ShloMosaic Idealize.ShloMosaic.ValueIdx

/-- The 4000×64 by 64×128 product into zero, at (p, k). -/
theorem mm2_in (a : FVec Ideal S4000x64 .bf16) (w : FVec Ideal S64x128 .bf16) (p : Fin 4000) (k : Fin 128) :
    matmul dot_S4000x64_S64x128_S4000x128_1_0_0_1_n_n none a w (constant S4000x128 .f32 0x00000000#32) (ix2 p k)
      = ∑ j : Fin 64, a (ix2 p j) * w (ix2 j k) :=
  LibDense.plain_matmul_apply none a w p k

/-- Entry (p, k) of the stored block. -/
theorem k2_pay1_apply (x mgp msp : Vec Ideal S4000x64 .f32) (wlg wrg wls wrs : Vec Ideal S64x128 .f32)
    (bg bs : Vec Ideal S1x128 .f32) (p : Fin 4000) (k : Fin 128) :
    k2_pay1 (F := Ideal) x mgp msp wlg wrg wls wrs bg bs (ix2 p k)
      = max (((∑ j : Fin 64, mgp (ix2 p j) * wlg (ix2 j k) + ∑ j : Fin 64, x (ix2 p j) * wrg (ix2 j k)) + bg (ix2 0 k))
          + ((∑ j : Fin 64, msp (ix2 p j) * wls (ix2 j k) + ∑ j : Fin 64, x (ix2 p j) * wrs (ix2 j k)) + bs (ix2 0 k))) z32 := by
  unfold k2_pay1
  simp only [shapeCast_self, addf_apply, broadcast_apply, maximumf_apply, mm2_in, truncf_apply, broadcastTo_1b_ab_apply]
  rfl

/-- The same, with the row and the channel named apart from the index they are read off. -/
theorem k2_pay1_row (x mgp msp : Vec Ideal S4000x64 .f32) (wlg wrg wls wrs : Vec Ideal S64x128 .f32)
    (bg bs : Vec Ideal S1x128 .f32) (y : S4000x128.Idx) (p : Fin 4000) (k : Fin 128) (hp : (y 0).val = p.val) (hk : (y 1).val = k.val) :
    k2_pay1 (F := Ideal) x mgp msp wlg wrg wls wrs bg bs y
      = max (((∑ j : Fin 64, mgp (ix2 p j) * wlg (ix2 j k) + ∑ j : Fin 64, x (ix2 p j) * wrg (ix2 j k)) + bg (ix2 0 k))
          + ((∑ j : Fin 64, msp (ix2 p j) * wls (ix2 j k) + ∑ j : Fin 64, x (ix2 p j) * wrs (ix2 j k)) + bs (ix2 0 k))) z32 := by
  obtain ⟨p', k', rfl⟩ : ∃ (p' : Fin 4000) (k' : Fin 128), y = ix2 p' k' := ⟨y 0, y 1, eq_ix2 y⟩
  obtain rfl : p' = p := Fin.ext hp
  obtain rfl : k' = k := Fin.ext hk
  exact k2_pay1_apply x mgp msp wlg wrg wls wrs bg bs p' k'

end Cert.Sage

end
-- ==== Proof.Final2.lean ====
/-
  The two-relation region (20000 nodes in 5 blocks of 4000 rows, 128 channels): what each grid point writes back is its
  block of the update's result array, and the blocks cover the array, so after the region the result array IS the
  update's array of the contents the region found in its nine operand arrays.

  Block t of a row-blocked operand holds rows 4000·t … 4000·t + 3999; the weight and bias operands are one block each,
  the same at every point.  So entry (p, k) of point t's stored block is the update's value for node 4000·t + p, channel k.
-/
import proofs.«154493_j32822140076341_2_alg».proof.Proof.Gen.KernelIdeal.Frame
import proofs.«154493_j32822140076341_2_alg».proof.Proof.Pay2

set_option maxRecDepth 16384

noncomputable section

namespace Cert.Sage

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2_2 : (![0, 0] : Fin 2 → Nat) = fun _ => 0 := funext fun a => by fin_cases a <;> rfl

/-- The printed block-index maps over the 5 grid points: the three row-blocked operands and the result move with the
    point along the rows, every other operand stays at block (0, 0). -/
theorem idx_facts2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = 0 ∧ win2_8.index t (1 : Fin 2) = 0
    ∧ win2_9.index t (0 : Fin 2) = t.val ∧ win2_9.index t (1 : Fin 2) = 0 :=
  (by decide +kernel : ∀ t : Fin grid2.N, _)

theorem lt5_2 (t : Fin cfg2.N) : t.val < 5 := t.isLt

/-- Row p of block t is node 4000·t + p. -/
def node2 (t : Fin cfg2.N) (p : Fin 4000) : Fin 20000 :=
  ⟨t.val * 4000 + p.val, by have := lt5_2 t; have := p.isLt; omega⟩

theorem emb2_0 (t : Fin cfg2.N) (p : Fin 4000) (j : Fin 64) :
    ((cfg2.win 0).blk t).view.emb (ix2 p j) = ix2 (node2 t p) j := by
  obtain ⟨e0, e1, -⟩ := idx_facts2 t
  funext a; apply Fin.ext
  match a with
  | ⟨0, _⟩ => show win2_0.index t (0 : Fin 2) * 4000 + 1 * p.val = t.val * 4000 + p.val; omega
  | ⟨1, _⟩ => show win2_0.index t (1 : Fin 2) * 64 + 1 * j.val = j.val; omega
theorem blk2_0 (c : Dev nD) (t : Fin cfg2.N) (p : Fin 4000) (j : Fin 64) :
    iblk2 V c 0 t (ix2 p j) = V c main_v37 (ix2 (node2 t p) j) := congrArg (V c main_v37) (emb2_0 t p j)

theorem emb2_1 (t : Fin cfg2.N) (p : Fin 4000) (j : Fin 64) :
    ((cfg2.win 1).blk t).view.emb (ix2 p j) = ix2 (node2 t p) j := by
  obtain ⟨-, -, e0, e1, -⟩ := idx_facts2 t
  funext a; apply Fin.ext
  match a with
  | ⟨0, _⟩ => show win2_1.index t (0 : Fin 2) * 4000 + 1 * p.val = t.val * 4000 + p.val; omega
  | ⟨1, _⟩ => show win2_1.index t (1 : Fin 2) * 64 + 1 * j.val = j.val; omega
theorem blk2_1 (c : Dev nD) (t : Fin cfg2.N) (p : Fin 4000) (j : Fin 64) :
    iblk2 V c 1 t (ix2 p j) = V c main_arg0 (ix2 (node2 t p) j) := congrArg (V c main_arg0) (emb2_1 t p j)

theorem emb2_2 (t : Fin cfg2.N) (j : Fin 64) (k : Fin 128) :
    ((cfg2.win 2).blk t).view.emb (ix2 j k) = ix2 j k := by
  obtain ⟨-, -, -, -, e0, e1, -⟩ := idx_facts2 t
  funext a; apply Fin.ext
  match a with
  | ⟨0, _⟩ => show win2_2.index t (0 : Fin 2) * 64 + 1 * j.val = j.val; omega
  | ⟨1, _⟩ => show win2_2.index t (1 : Fin 2) * 128 + 1 * k.val = k.val; omega
theorem blk2_2 (c : Dev nD) (t : Fin cfg2.N) (j : Fin 64) (k : Fin 128) :
    iblk2 V c 2 t (ix2 j k) = V c main_arg14 (ix2 j k) := congrArg (V c main_arg14) (emb2_2 t j k)

theorem emb2_3 (t : Fin cfg2.N) (j : Fin 64) (k : Fin 128) :
    ((cfg2.win 3).blk t).view.emb (ix2 j k) = ix2 j k := by
  obtain ⟨-, -, -, -, -, -, e0, e1, -⟩ := idx_facts2 t
  funext a; apply Fin.ext
  match a with
  | ⟨0, _⟩ => show win2_3.index t (0 : Fin 2) * 64 + 1 * j.val = j.val; omega
  | ⟨1, _⟩ => show win2_3.index t (1 : Fin 2) * 128 + 1 * k.val = k.val; omega
theorem blk2_3 (c : Dev nD) (t : Fin cfg2.N) (j : Fin 64) (k : Fin 128) :
    iblk2 V c 3 t (ix2 j k) = V c main_arg15 (ix2 j k) := congrArg (V c main_arg15) (emb2_3 t j k)

theorem emb2_4 (t : Fin cfg2.N) (u : Fin 1) (k : Fin 128) :
    ((cfg2.win 4).blk t).view.emb (ix2 u k) = ix2 u k := by
  obtain ⟨-, -, -, -, -, -, -, -, e0, e1, -⟩ := idx_facts2 t
  funext a; apply Fin.ext
  match a with
  | ⟨0, _⟩ => show win2_4.index t (0 : Fin 2) * 1 + 1 * u.val = u.val; omega
  | ⟨1, _⟩ => show win2_4.index t (1 : Fin 2) * 128 + 1 * k.val = k.val; omega
theorem blk2_4 (c : Dev nD) (t : Fin cfg2.N) (u : Fin 1) (k : Fin 128) :
    iblk2 V c 4 t (ix2 u k) = V c main_v84 (ix2 u k) := congrArg (V c main_v84) (emb2_4 t u k)

theorem emb2_5 (t : Fin cfg2.N) (p : Fin 4000) (j : Fin 64) :
    ((cfg2.win 5).blk t).view.emb (ix2 p j) = ix2 (node2 t p) j := by
  obtain ⟨-, -, -, -, -, -, -, -, -, -, e0, e1, -⟩ := idx_facts2 t
  funext a; apply Fin.ext
  match a with
  | ⟨0, _⟩ => show win2_5.index t (0 : Fin 2) * 4000 + 1 * p.val = t.val * 4000 + p.val; omega
  | ⟨1, _⟩ => show win2_5.index t (1 : Fin 2) * 64 + 1 * j.val = j.val; omega
theorem blk2_5 (c : Dev nD) (t : Fin cfg2.N) (p : Fin 4000) (j : Fin 64) :
    iblk2 V c 5 t (ix2 p j) = V c main_v56 (ix2 (node2 t p) j) := congrArg (V c main_v56) (emb2_5 t p j)

theorem emb2_6 (t : Fin cfg2.N) (j : Fin 64) (k : Fin 128) :
    ((cfg2.win 6).blk t).view.emb (ix2 j k) = ix2 j k := by
  obtain ⟨-, -, -, -, -, -, -, -, -, -, -, -, e0, e1, -⟩ := idx_facts2 t
  funext a; apply Fin.ext
  match a with
  | ⟨0, _⟩ => show win2_6.index t (0 : Fin 2) * 64 + 1 * j.val = j.val; omega
  | ⟨1, _⟩ => show win2_6.index t (1 : Fin 2) * 128 + 1 * k.val = k.val; omega
theorem blk2_6 (c : Dev nD) (t : Fin cfg2.N) (j : Fin 64) (k : Fin 128) :
    iblk2 V c 6 t (ix2 j k) = V c main_arg17 (ix2 j k) := congrArg (V c main_arg17) (emb2_6 t j k)

theorem emb2_7 (t : Fin cfg2.N) (j : Fin 64) (k : Fin 128) :
    ((cfg2.win 7).blk t).view.emb (ix2 j k) = ix2 j k := by
  obtain ⟨-, -, -, -, -, -, -, -, -, -, -, -, -, -, e0, e1, -⟩ := idx_facts2 t
  funext a; apply Fin.ext
  match a with
  | ⟨0, _⟩ => show win2_7.index t (0 : Fin 2) * 64 + 1 * j.val = j.val; omega
  | ⟨1, _⟩ => show win2_7.index t (1 : Fin 2) * 128 + 1 * k.val = k.val; omega
theorem blk2_7 (c : Dev nD) (t : Fin cfg2.N) (j : Fin 64) (k : Fin 128) :
    iblk2 V c 7 t (ix2 j k) = V c main_arg18 (ix2 j k) := congrArg (V c main_arg18) (emb2_7 t j k)

theorem emb2_8 (t : Fin cfg2.N) (u : Fin 1) (k : Fin 128) :
    ((cfg2.win 8).blk t).view.emb (ix2 u k) = ix2 u k := by
  obtain ⟨-, -, -, -, -, -, -, -, -, -, -, -, -, -, -, -, e0, e1, -⟩ := idx_facts2 t
  funext a; apply Fin.ext
  match a with
  | ⟨0, _⟩ => show win2_8.index t (0 : Fin 2) * 1 + 1 * u.val = u.val; omega
  | ⟨1, _⟩ => show win2_8.index t (1 : Fin 2) * 128 + 1 * k.val = k.val; omega
theorem blk2_8 (c : Dev nD) (t : Fin cfg2.N) (u : Fin 1) (k : Fin 128) :
    iblk2 V c 8 t (ix2 u k) = V c main_v85 (ix2 u k) := congrArg (V c main_v85) (emb2_8 t u k)

theorem emb2_9 (t : Fin cfg2.N) (y : S4000x128.Idx) (p : Fin 4000) (k : Fin 128) (hp : (y 0).val = p.val) (hk : (y 1).val = k.val) :
    ((cfg2.win 9).blk t).view.emb y = ix2 (node2 t p) k := by
  obtain ⟨-, -, -, -, -, -, -, -, -, -, -, -, -, -, -, -, -, -, e0, e1⟩ := idx_facts2 t
  funext a; apply Fin.ext
  match a with
  | ⟨0, _⟩ => show win2_9.index t (0 : Fin 2) * 4000 + 1 * (y 0).val = t.val * 4000 + p.val; omega
  | ⟨1, _⟩ => show win2_9.index t (1 : Fin 2) * 128 + 1 * (y 1).val = k.val; omega

/-- What grid point t writes back is block t of the update's array of the operand arrays as the region finds them. -/
theorem flushed2 (c : Dev nD) (t : Fin cfg2.N) :
    (dat2 V c).flushed 9 t = ((cfg2.win 9).blk t).view.read (Elt Ideal)
      (pairArr (N := 20000) (V c main_v37) (V c main_arg0) (V c main_arg14) (V c main_arg15) (fun k => V c main_v84 (ix2 0 k))
        (V c main_v56) (V c main_arg17) (V c main_arg18) (fun k => V c main_v85 (ix2 0 k))) := by
  show (cfg2.win 9).cut (grid2.coords t) ((dat2 V c).after 9 t) = _
  rw [after2_9]
  unfold out2_9
  rw [View.canon_unit_zero zero2_2]
  simp only [View.ld_unit_zero (S := S4000x64) zero2_2, View.ld_unit_zero (S := S64x128) zero2_2, View.ld_unit_zero (S := S1x128) zero2_2]
  funext y
  have hlt0 : (y 0).val < 4000 := (y 0).isLt
  have hlt1 : (y 1).val < 128 := (y 1).isLt
  refine (k2_pay1_row (iblk2 V c 1 t) (iblk2 V c 0 t) (iblk2 V c 5 t) (iblk2 V c 2 t) (iblk2 V c 3 t) (iblk2 V c 6 t)
    (iblk2 V c 7 t) (iblk2 V c 4 t) (iblk2 V c 8 t) y ⟨(y 0).val, hlt0⟩ ⟨(y 1).val, hlt1⟩ rfl rfl).trans ?_
  show _ = pairArr (N := 20000) (V c main_v37) (V c main_arg0) (V c main_arg14) (V c main_arg15) (fun k => V c main_v84 (ix2 0 k))
        (V c main_v56) (V c main_arg17) (V c main_arg18) (fun k => V c main_v85 (ix2 0 k)) (((cfg2.win 9).blk t).view.emb y)
  rw [emb2_9 t y ⟨(y 0).val, hlt0⟩ ⟨(y 1).val, hlt1⟩ rfl rfl, pairArr_ix2]
  unfold combine
  simp only [blk2_0, blk2_1, blk2_2, blk2_3, blk2_4, blk2_5, blk2_6, blk2_7, blk2_8]

/-- An index of the result array is in point t's block iff each coordinate is in the block's range on its axis. -/
theorem mem_blk2 (t : Fin cfg2.N) (i : S20000x128.Idx) :
    i ∈ ((cfg2.win 9).blk t).view.set ↔ ∀ a : Fin 2, win2_9.index t a * S4000x128.size a ≤ (i a).val
      ∧ (i a).val < win2_9.index t a * S4000x128.size a + S4000x128.size a := by
  show i ∈ ((View.whole main_v86).slice (win2_9.rect t)).set ↔ _
  rw [View.set_slice_whole, Rect.mem_set_unit]
  exact Iff.rfl

/-- Node r lies in the block of point r / 4000: the blocks cover the result array. -/
theorem cover2 (i : S20000x128.Idx) :
    ∃ t : Fin cfg2.N, (cfg2.win 9).flush t = true ∧ i ∈ ((cfg2.win 9).blk t).view.set := by
  have hi0 : (i 0).val < 20000 := (i 0).isLt
  have hi1 : (i 1).val < 128 := (i 1).isLt
  have ht : (i 0).val / 4000 < 5 := by omega
  obtain ⟨-, -, -, -, -, -, -, -, -, -, -, -, -, -, -, -, -, -, e0, e1⟩ := idx_facts2 ⟨(i 0).val / 4000, ht⟩
  refine ⟨⟨(i 0).val / 4000, ht⟩, flush2_9 _, ?_⟩
  rw [mem_blk2]
  intro a
  match a with
  | ⟨0, _⟩ =>
    show win2_9.index ⟨(i 0).val / 4000, ht⟩ (0 : Fin 2) * 4000 ≤ (i 0).val
      ∧ (i 0).val < win2_9.index ⟨(i 0).val / 4000, ht⟩ (0 : Fin 2) * 4000 + 4000
    rw [e0]; show (i 0).val / 4000 * 4000 ≤ (i 0).val ∧ (i 0).val < (i 0).val / 4000 * 4000 + 4000; omega
  | ⟨1, _⟩ =>
    show win2_9.index ⟨(i 0).val / 4000, ht⟩ (1 : Fin 2) * 128 ≤ (i 1).val
      ∧ (i 1).val < win2_9.index ⟨(i 0).val / 4000, ht⟩ (1 : Fin 2) * 128 + 128
    rw [e1]; omega

/-- After the region the result array is the update's array of the operand arrays as the region found them. -/
theorem final2 (c : Dev nD) :
    (dat2 V c).arrAt 9 cfg2.N
      = pairArr (N := 20000) (V c main_v37) (V c main_arg0) (V c main_arg14) (V c main_arg15) (fun k => V c main_v84 (ix2 0 k))
        (V c main_v56) (V c main_arg17) (V c main_arg18) (fun k => V c main_v85 (ix2 0 k)) :=
  (dat2 V c).arrAt_eq_of_cover 9 _ (fun t _ => flushed2 V c t) cover2

end Cert.Sage

end
-- ==== Proof.EntryMeans.lean ====
/-
  The four neighbour means — gather the source rows, add them into their destination rows, count the destinations,
  divide by the count raised to at least one — as the first stretch of host operations leaves them: the same
  composition of the same operations that the reference program applies to the same three arguments.
-/
import proofs.«154493_j32822140076341_2_alg».proof.Proof.Gen.KernelIdeal.Frame
import proofs.«154493_j32822140076341_2_alg».proof.Proof.Gen.ReferenceIdeal.Read

set_option maxRecDepth 16384

noncomputable section

namespace Cert.Sage

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

set_option maxHeartbeats 4000000 in
/-- The mean the kernel program holds in its buffer v18 is the reference's stage v18 of the same arguments. -/
theorem W1_v18 (c : Dev nD) :
    W1 m ρ c (Proc.devRef .tc main_v18)
      = Cert.ReferenceIdeal.Read.val_main_v18 (F := Ideal) (m ((c : Thread nD τ).loc main_arg0)) (m ((c : Thread nD τ).loc main_arg3)) (m ((c : Thread nD τ).loc main_arg4)) := by
  show StableHlo.after hostOps0 (W0 m ρ c) (Proc.devRef .tc main_v18) = _
  after_results_simp
  rfl

set_option maxHeartbeats 4000000 in
/-- The mean the kernel program holds in its buffer v37 is the reference's stage v44 of the same arguments. -/
theorem W1_v37 (c : Dev nD) :
    W1 m ρ c (Proc.devRef .tc main_v37)
      = Cert.ReferenceIdeal.Read.val_main_v44 (F := Ideal) (m ((c : Thread nD τ).loc main_arg1)) (m ((c : Thread nD τ).loc main_arg5)) (m ((c : Thread nD τ).loc main_arg6)) := by
  show StableHlo.after hostOps0 (W0 m ρ c) (Proc.devRef .tc main_v37) = _
  after_results_simp
  rfl

set_option maxHeartbeats 4000000 in
/-- The mean the kernel program holds in its buffer v56 is the reference's stage v69 of the same arguments. -/
theorem W1_v56 (c : Dev nD) :
    W1 m ρ c (Proc.devRef .tc main_v56)
      = Cert.ReferenceIdeal.Read.val_main_v69 (F := Ideal) (m ((c : Thread nD τ).loc main_arg2)) (m ((c : Thread nD τ).loc main_arg7)) (m ((c : Thread nD τ).loc main_arg8)) := by
  show StableHlo.after hostOps0 (W0 m ρ c) (Proc.devRef .tc main_v56) = _
  after_results_simp
  rfl

set_option maxHeartbeats 4000000 in
/-- The mean the kernel program holds in its buffer v75 is the reference's stage v96 of the same arguments. -/
theorem W1_v75 (c : Dev nD) :
    W1 m ρ c (Proc.devRef .tc main_v75)
      = Cert.ReferenceIdeal.Read.val_main_v96 (F := Ideal) (m ((c : Thread nD τ).loc main_arg0)) (m ((c : Thread nD τ).loc main_arg9)) (m ((c : Thread nD τ).loc main_arg10)) := by
  show StableHlo.after hostOps0 (W0 m ρ c) (Proc.devRef .tc main_v75) = _
  after_results_simp
  rfl

end Cert.Sage

end
-- ==== Proof.EntryArgs.lean ====
/-
  The argument arrays, and the four means, read at each later segment boundary: no host operation writes an argument
  or overwrites a mean, and a region leaves every array it only reads as it found it, so each boundary's contents at
  such a buffer are the contents one boundary earlier, back to the launch memory (for a mean: back to the first
  stretch's result).
-/
import proofs.«154493_j32822140076341_2_alg».proof.Proof.Gen.KernelIdeal.Frame
import Idealize.ShloMosaic.Lib.ValueIdx

set_option maxRecDepth 16384

noncomputable section

namespace Cert.Sage

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- A buffer no operation of the stretch writes keeps its contents over the stretch. -/
macro "not_written" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem W1_a0 (c : Dev nD) : W1 m ρ c (Proc.devRef .tc main_arg0) = m ((c : Thread nD τ).loc main_arg0) :=
  (show StableHlo.after hostOps0 (W0 m ρ c) (Proc.devRef .tc main_arg0) = W0 m ρ c (Proc.devRef .tc main_arg0) by not_written).trans rfl
theorem W1_a1 (c : Dev nD) : W1 m ρ c (Proc.devRef .tc main_arg1) = m ((c : Thread nD τ).loc main_arg1) :=
  (show StableHlo.after hostOps0 (W0 m ρ c) (Proc.devRef .tc main_arg1) = W0 m ρ c (Proc.devRef .tc main_arg1) by not_written).trans rfl
theorem W1_a2 (c : Dev nD) : W1 m ρ c (Proc.devRef .tc main_arg2) = m ((c : Thread nD τ).loc main_arg2) :=
  (show StableHlo.after hostOps0 (W0 m ρ c) (Proc.devRef .tc main_arg2) = W0 m ρ c (Proc.devRef .tc main_arg2) by not_written).trans rfl
theorem W1_a11 (c : Dev nD) : W1 m ρ c (Proc.devRef .tc main_arg11) = m ((c : Thread nD τ).loc main_arg11) :=
  (show StableHlo.after hostOps0 (W0 m ρ c) (Proc.devRef .tc main_arg11) = W0 m ρ c (Proc.devRef .tc main_arg11) by not_written).trans rfl
theorem W1_a12 (c : Dev nD) : W1 m ρ c (Proc.devRef .tc main_arg12) = m ((c : Thread nD τ).loc main_arg12) :=
  (show StableHlo.after hostOps0 (W0 m ρ c) (Proc.devRef .tc main_arg12) = W0 m ρ c (Proc.devRef .tc main_arg12) by not_written).trans rfl
theorem W1_a13 (c : Dev nD) : W1 m ρ c (Proc.devRef .tc main_arg13) = m ((c : Thread nD τ).loc main_arg13) :=
  (show StableHlo.after hostOps0 (W0 m ρ c) (Proc.devRef .tc main_arg13) = W0 m ρ c (Proc.devRef .tc main_arg13) by not_written).trans rfl
theorem W1_a14 (c : Dev nD) : W1 m ρ c (Proc.devRef .tc main_arg14) = m ((c : Thread nD τ).loc main_arg14) :=
  (show StableHlo.after hostOps0 (W0 m ρ c) (Proc.devRef .tc main_arg14) = W0 m ρ c (Proc.devRef .tc main_arg14) by not_written).trans rfl
theorem W1_a15 (c : Dev nD) : W1 m ρ c (Proc.devRef .tc main_arg15) = m ((c : Thread nD τ).loc main_arg15) :=
  (show StableHlo.after hostOps0 (W0 m ρ c) (Proc.devRef .tc main_arg15) = W0 m ρ c (Proc.devRef .tc main_arg15) by not_written).trans rfl
theorem W1_a16 (c : Dev nD) : W1 m ρ c (Proc.devRef .tc main_arg16) = m ((c : Thread nD τ).loc main_arg16) :=
  (show StableHlo.after hostOps0 (W0 m ρ c) (Proc.devRef .tc main_arg16) = W0 m ρ c (Proc.devRef .tc main_arg16) by not_written).trans rfl
theorem W1_a17 (c : Dev nD) : W1 m ρ c (Proc.devRef .tc main_arg17) = m ((c : Thread nD τ).loc main_arg17) :=
  (show StableHlo.after hostOps0 (W0 m ρ c) (Proc.devRef .tc main_arg17) = W0 m ρ c (Proc.devRef .tc main_arg17) by not_written).trans rfl
theorem W1_a18 (c : Dev nD) : W1 m ρ c (Proc.devRef .tc main_arg18) = m ((c : Thread nD τ).loc main_arg18) :=
  (show StableHlo.after hostOps0 (W0 m ρ c) (Proc.devRef .tc main_arg18) = W0 m ρ c (Proc.devRef .tc main_arg18) by not_written).trans rfl
theorem W1_a19 (c : Dev nD) : W1 m ρ c (Proc.devRef .tc main_arg19) = m ((c : Thread nD τ).loc main_arg19) :=
  (show StableHlo.after hostOps0 (W0 m ρ c) (Proc.devRef .tc main_arg19) = W0 m ρ c (Proc.devRef .tc main_arg19) by not_written).trans rfl
theorem W1_a20 (c : Dev nD) : W1 m ρ c (Proc.devRef .tc main_arg20) = m ((c : Thread nD τ).loc main_arg20) :=
  (show StableHlo.after hostOps0 (W0 m ρ c) (Proc.devRef .tc main_arg20) = W0 m ρ c (Proc.devRef .tc main_arg20) by not_written).trans rfl
theorem W1_a21 (c : Dev nD) : W1 m ρ c (Proc.devRef .tc main_arg21) = m ((c : Thread nD τ).loc main_arg21) :=
  (show StableHlo.after hostOps0 (W0 m ρ c) (Proc.devRef .tc main_arg21) = W0 m ρ c (Proc.devRef .tc main_arg21) by not_written).trans rfl
theorem W1_a22 (c : Dev nD) : W1 m ρ c (Proc.devRef .tc main_arg22) = m ((c : Thread nD τ).loc main_arg22) :=
  (show StableHlo.after hostOps0 (W0 m ρ c) (Proc.devRef .tc main_arg22) = W0 m ρ c (Proc.devRef .tc main_arg22) by not_written).trans rfl
theorem W1_a23 (c : Dev nD) : W1 m ρ c (Proc.devRef .tc main_arg23) = m ((c : Thread nD τ).loc main_arg23) :=
  (show StableHlo.after hostOps0 (W0 m ρ c) (Proc.devRef .tc main_arg23) = W0 m ρ c (Proc.devRef .tc main_arg23) by not_written).trans rfl
theorem W1_a24 (c : Dev nD) : W1 m ρ c (Proc.devRef .tc main_arg24) = m ((c : Thread nD τ).loc main_arg24) :=
  (show StableHlo.after hostOps0 (W0 m ρ c) (Proc.devRef .tc main_arg24) = W0 m ρ c (Proc.devRef .tc main_arg24) by not_written).trans rfl
theorem W1_a25 (c : Dev nD) : W1 m ρ c (Proc.devRef .tc main_arg25) = m ((c : Thread nD τ).loc main_arg25) :=
  (show StableHlo.after hostOps0 (W0 m ρ c) (Proc.devRef .tc main_arg25) = W0 m ρ c (Proc.devRef .tc main_arg25) by not_written).trans rfl
theorem W2_a0 (c : Dev nD) : W2 m ρ c (Proc.devRef .tc main_arg0) = m ((c : Thread nD τ).loc main_arg0) :=
  (W2_of_ne m ρ c main_arg0 (by decide)).trans (W1_a0 m ρ c)
theorem W3_a0 (c : Dev nD) : W3 m ρ c (Proc.devRef .tc main_arg0) = m ((c : Thread nD τ).loc main_arg0) :=
  (show StableHlo.after hostOps1 (W2 m ρ c) (Proc.devRef .tc main_arg0) = W2 m ρ c (Proc.devRef .tc main_arg0) by not_written).trans (W2_a0 m ρ c)
theorem W2_a2 (c : Dev nD) : W2 m ρ c (Proc.devRef .tc main_arg2) = m ((c : Thread nD τ).loc main_arg2) :=
  (W2_of_ne m ρ c main_arg2 (by decide)).trans (W1_a2 m ρ c)
theorem W3_a2 (c : Dev nD) : W3 m ρ c (Proc.devRef .tc main_arg2) = m ((c : Thread nD τ).loc main_arg2) :=
  (show StableHlo.after hostOps1 (W2 m ρ c) (Proc.devRef .tc main_arg2) = W2 m ρ c (Proc.devRef .tc main_arg2) by not_written).trans (W2_a2 m ρ c)
theorem W2_a14 (c : Dev nD) : W2 m ρ c (Proc.devRef .tc main_arg14) = m ((c : Thread nD τ).loc main_arg14) :=
  (W2_of_ne m ρ c main_arg14 (by decide)).trans (W1_a14 m ρ c)
theorem W3_a14 (c : Dev nD) : W3 m ρ c (Proc.devRef .tc main_arg14) = m ((c : Thread nD τ).loc main_arg14) :=
  (show StableHlo.after hostOps1 (W2 m ρ c) (Proc.devRef .tc main_arg14) = W2 m ρ c (Proc.devRef .tc main_arg14) by not_written).trans (W2_a14 m ρ c)
theorem W2_a15 (c : Dev nD) : W2 m ρ c (Proc.devRef .tc main_arg15) = m ((c : Thread nD τ).loc main_arg15) :=
  (W2_of_ne m ρ c main_arg15 (by decide)).trans (W1_a15 m ρ c)
theorem W3_a15 (c : Dev nD) : W3 m ρ c (Proc.devRef .tc main_arg15) = m ((c : Thread nD τ).loc main_arg15) :=
  (show StableHlo.after hostOps1 (W2 m ρ c) (Proc.devRef .tc main_arg15) = W2 m ρ c (Proc.devRef .tc main_arg15) by not_written).trans (W2_a15 m ρ c)
theorem W2_a16 (c : Dev nD) : W2 m ρ c (Proc.devRef .tc main_arg16) = m ((c : Thread nD τ).loc main_arg16) :=
  (W2_of_ne m ρ c main_arg16 (by decide)).trans (W1_a16 m ρ c)
theorem W3_a16 (c : Dev nD) : W3 m ρ c (Proc.devRef .tc main_arg16) = m ((c : Thread nD τ).loc main_arg16) :=
  (show StableHlo.after hostOps1 (W2 m ρ c) (Proc.devRef .tc main_arg16) = W2 m ρ c (Proc.devRef .tc main_arg16) by not_written).trans (W2_a16 m ρ c)
theorem W2_a17 (c : Dev nD) : W2 m ρ c (Proc.devRef .tc main_arg17) = m ((c : Thread nD τ).loc main_arg17) :=
  (W2_of_ne m ρ c main_arg17 (by decide)).trans (W1_a17 m ρ c)
theorem W3_a17 (c : Dev nD) : W3 m ρ c (Proc.devRef .tc main_arg17) = m ((c : Thread nD τ).loc main_arg17) :=
  (show StableHlo.after hostOps1 (W2 m ρ c) (Proc.devRef .tc main_arg17) = W2 m ρ c (Proc.devRef .tc main_arg17) by not_written).trans (W2_a17 m ρ c)
theorem W2_a18 (c : Dev nD) : W2 m ρ c (Proc.devRef .tc main_arg18) = m ((c : Thread nD τ).loc main_arg18) :=
  (W2_of_ne m ρ c main_arg18 (by decide)).trans (W1_a18 m ρ c)
theorem W3_a18 (c : Dev nD) : W3 m ρ c (Proc.devRef .tc main_arg18) = m ((c : Thread nD τ).loc main_arg18) :=
  (show StableHlo.after hostOps1 (W2 m ρ c) (Proc.devRef .tc main_arg18) = W2 m ρ c (Proc.devRef .tc main_arg18) by not_written).trans (W2_a18 m ρ c)
theorem W2_a19 (c : Dev nD) : W2 m ρ c (Proc.devRef .tc main_arg19) = m ((c : Thread nD τ).loc main_arg19) :=
  (W2_of_ne m ρ c main_arg19 (by decide)).trans (W1_a19 m ρ c)
theorem W3_a19 (c : Dev nD) : W3 m ρ c (Proc.devRef .tc main_arg19) = m ((c : Thread nD τ).loc main_arg19) :=
  (show StableHlo.after hostOps1 (W2 m ρ c) (Proc.devRef .tc main_arg19) = W2 m ρ c (Proc.devRef .tc main_arg19) by not_written).trans (W2_a19 m ρ c)
theorem W2_a20 (c : Dev nD) : W2 m ρ c (Proc.devRef .tc main_arg20) = m ((c : Thread nD τ).loc main_arg20) :=
  (W2_of_ne m ρ c main_arg20 (by decide)).trans (W1_a20 m ρ c)
theorem W3_a20 (c : Dev nD) : W3 m ρ c (Proc.devRef .tc main_arg20) = m ((c : Thread nD τ).loc main_arg20) :=
  (show StableHlo.after hostOps1 (W2 m ρ c) (Proc.devRef .tc main_arg20) = W2 m ρ c (Proc.devRef .tc main_arg20) by not_written).trans (W2_a20 m ρ c)
theorem W2_a21 (c : Dev nD) : W2 m ρ c (Proc.devRef .tc main_arg21) = m ((c : Thread nD τ).loc main_arg21) :=
  (W2_of_ne m ρ c main_arg21 (by decide)).trans (W1_a21 m ρ c)
theorem W3_a21 (c : Dev nD) : W3 m ρ c (Proc.devRef .tc main_arg21) = m ((c : Thread nD τ).loc main_arg21) :=
  (show StableHlo.after hostOps1 (W2 m ρ c) (Proc.devRef .tc main_arg21) = W2 m ρ c (Proc.devRef .tc main_arg21) by not_written).trans (W2_a21 m ρ c)
theorem W2_a22 (c : Dev nD) : W2 m ρ c (Proc.devRef .tc main_arg22) = m ((c : Thread nD τ).loc main_arg22) :=
  (W2_of_ne m ρ c main_arg22 (by decide)).trans (W1_a22 m ρ c)
theorem W3_a22 (c : Dev nD) : W3 m ρ c (Proc.devRef .tc main_arg22) = m ((c : Thread nD τ).loc main_arg22) :=
  (show StableHlo.after hostOps1 (W2 m ρ c) (Proc.devRef .tc main_arg22) = W2 m ρ c (Proc.devRef .tc main_arg22) by not_written).trans (W2_a22 m ρ c)
theorem W2_a23 (c : Dev nD) : W2 m ρ c (Proc.devRef .tc main_arg23) = m ((c : Thread nD τ).loc main_arg23) :=
  ((W2_arr m ρ c 5).trans (((dat0 (V1 m ρ) c).arrAt_in 5 rfl _).trans (A_eq0 (V1 m ρ) c 5))).trans (W1_a23 m ρ c)
theorem W3_a23 (c : Dev nD) : W3 m ρ c (Proc.devRef .tc main_arg23) = m ((c : Thread nD τ).loc main_arg23) :=
  (show StableHlo.after hostOps1 (W2 m ρ c) (Proc.devRef .tc main_arg23) = W2 m ρ c (Proc.devRef .tc main_arg23) by not_written).trans (W2_a23 m ρ c)
theorem W2_a24 (c : Dev nD) : W2 m ρ c (Proc.devRef .tc main_arg24) = m ((c : Thread nD τ).loc main_arg24) :=
  (W2_of_ne m ρ c main_arg24 (by decide)).trans (W1_a24 m ρ c)
theorem W3_a24 (c : Dev nD) : W3 m ρ c (Proc.devRef .tc main_arg24) = m ((c : Thread nD τ).loc main_arg24) :=
  (show StableHlo.after hostOps1 (W2 m ρ c) (Proc.devRef .tc main_arg24) = W2 m ρ c (Proc.devRef .tc main_arg24) by not_written).trans (W2_a24 m ρ c)
theorem W2_a25 (c : Dev nD) : W2 m ρ c (Proc.devRef .tc main_arg25) = m ((c : Thread nD τ).loc main_arg25) :=
  (W2_of_ne m ρ c main_arg25 (by decide)).trans (W1_a25 m ρ c)
theorem W3_a25 (c : Dev nD) : W3 m ρ c (Proc.devRef .tc main_arg25) = m ((c : Thread nD τ).loc main_arg25) :=
  (show StableHlo.after hostOps1 (W2 m ρ c) (Proc.devRef .tc main_arg25) = W2 m ρ c (Proc.devRef .tc main_arg25) by not_written).trans (W2_a25 m ρ c)
theorem W4_a0 (c : Dev nD) : W4 m ρ c (Proc.devRef .tc main_arg0) = m ((c : Thread nD τ).loc main_arg0) :=
  (W4_of_ne m ρ c main_arg0 (by decide)).trans (W3_a0 m ρ c)
theorem W5_a0 (c : Dev nD) : W5 m ρ c (Proc.devRef .tc main_arg0) = m ((c : Thread nD τ).loc main_arg0) :=
  (show StableHlo.after hostOps2 (W4 m ρ c) (Proc.devRef .tc main_arg0) = W4 m ρ c (Proc.devRef .tc main_arg0) by not_written).trans (W4_a0 m ρ c)
theorem W4_a14 (c : Dev nD) : W4 m ρ c (Proc.devRef .tc main_arg14) = m ((c : Thread nD τ).loc main_arg14) :=
  (W4_of_ne m ρ c main_arg14 (by decide)).trans (W3_a14 m ρ c)
theorem W5_a14 (c : Dev nD) : W5 m ρ c (Proc.devRef .tc main_arg14) = m ((c : Thread nD τ).loc main_arg14) :=
  (show StableHlo.after hostOps2 (W4 m ρ c) (Proc.devRef .tc main_arg14) = W4 m ρ c (Proc.devRef .tc main_arg14) by not_written).trans (W4_a14 m ρ c)
theorem W4_a15 (c : Dev nD) : W4 m ρ c (Proc.devRef .tc main_arg15) = m ((c : Thread nD τ).loc main_arg15) :=
  (W4_of_ne m ρ c main_arg15 (by decide)).trans (W3_a15 m ρ c)
theorem W5_a15 (c : Dev nD) : W5 m ρ c (Proc.devRef .tc main_arg15) = m ((c : Thread nD τ).loc main_arg15) :=
  (show StableHlo.after hostOps2 (W4 m ρ c) (Proc.devRef .tc main_arg15) = W4 m ρ c (Proc.devRef .tc main_arg15) by not_written).trans (W4_a15 m ρ c)
theorem W4_a16 (c : Dev nD) : W4 m ρ c (Proc.devRef .tc main_arg16) = m ((c : Thread nD τ).loc main_arg16) :=
  (W4_of_ne m ρ c main_arg16 (by decide)).trans (W3_a16 m ρ c)
theorem W5_a16 (c : Dev nD) : W5 m ρ c (Proc.devRef .tc main_arg16) = m ((c : Thread nD τ).loc main_arg16) :=
  (show StableHlo.after hostOps2 (W4 m ρ c) (Proc.devRef .tc main_arg16) = W4 m ρ c (Proc.devRef .tc main_arg16) by not_written).trans (W4_a16 m ρ c)
theorem W4_a17 (c : Dev nD) : W4 m ρ c (Proc.devRef .tc main_arg17) = m ((c : Thread nD τ).loc main_arg17) :=
  (W4_of_ne m ρ c main_arg17 (by decide)).trans (W3_a17 m ρ c)
theorem W5_a17 (c : Dev nD) : W5 m ρ c (Proc.devRef .tc main_arg17) = m ((c : Thread nD τ).loc main_arg17) :=
  (show StableHlo.after hostOps2 (W4 m ρ c) (Proc.devRef .tc main_arg17) = W4 m ρ c (Proc.devRef .tc main_arg17) by not_written).trans (W4_a17 m ρ c)
theorem W4_a18 (c : Dev nD) : W4 m ρ c (Proc.devRef .tc main_arg18) = m ((c : Thread nD τ).loc main_arg18) :=
  (W4_of_ne m ρ c main_arg18 (by decide)).trans (W3_a18 m ρ c)
theorem W5_a18 (c : Dev nD) : W5 m ρ c (Proc.devRef .tc main_arg18) = m ((c : Thread nD τ).loc main_arg18) :=
  (show StableHlo.after hostOps2 (W4 m ρ c) (Proc.devRef .tc main_arg18) = W4 m ρ c (Proc.devRef .tc main_arg18) by not_written).trans (W4_a18 m ρ c)
theorem W4_a19 (c : Dev nD) : W4 m ρ c (Proc.devRef .tc main_arg19) = m ((c : Thread nD τ).loc main_arg19) :=
  (W4_of_ne m ρ c main_arg19 (by decide)).trans (W3_a19 m ρ c)
theorem W5_a19 (c : Dev nD) : W5 m ρ c (Proc.devRef .tc main_arg19) = m ((c : Thread nD τ).loc main_arg19) :=
  (show StableHlo.after hostOps2 (W4 m ρ c) (Proc.devRef .tc main_arg19) = W4 m ρ c (Proc.devRef .tc main_arg19) by not_written).trans (W4_a19 m ρ c)

/-! The means, carried from the first stretch's result to the region that reads them. -/

theorem W3_v75 (c : Dev nD) : W3 m ρ c (Proc.devRef .tc main_v75) = W1 m ρ c (Proc.devRef .tc main_v75) :=
  (show StableHlo.after hostOps1 (W2 m ρ c) (Proc.devRef .tc main_v75) = W2 m ρ c (Proc.devRef .tc main_v75) by not_written).trans
    (W2_of_ne m ρ c main_v75 (by decide))

theorem W5_v37 (c : Dev nD) : W5 m ρ c (Proc.devRef .tc main_v37) = W1 m ρ c (Proc.devRef .tc main_v37) :=
  (show StableHlo.after hostOps2 (W4 m ρ c) (Proc.devRef .tc main_v37) = W4 m ρ c (Proc.devRef .tc main_v37) by not_written).trans
    ((W4_of_ne m ρ c main_v37 (by decide)).trans
      ((show StableHlo.after hostOps1 (W2 m ρ c) (Proc.devRef .tc main_v37) = W2 m ρ c (Proc.devRef .tc main_v37) by not_written).trans
        (W2_of_ne m ρ c main_v37 (by decide))))

theorem W5_v56 (c : Dev nD) : W5 m ρ c (Proc.devRef .tc main_v56) = W1 m ρ c (Proc.devRef .tc main_v56) :=
  (show StableHlo.after hostOps2 (W4 m ρ c) (Proc.devRef .tc main_v56) = W4 m ρ c (Proc.devRef .tc main_v56) by not_written).trans
    ((W4_of_ne m ρ c main_v56 (by decide)).trans
      ((show StableHlo.after hostOps1 (W2 m ρ c) (Proc.devRef .tc main_v56) = W2 m ρ c (Proc.devRef .tc main_v56) by not_written).trans
        (W2_of_ne m ρ c main_v56 (by decide))))

/-! The two heads' result arrays, carried from their regions' exits to the end of the program. -/

theorem W6_v79 (c : Dev nD) : W6 m ρ c (Proc.devRef .tc main_v79) = W2 m ρ c (Proc.devRef .tc main_v79) :=
  (W6_of_ne m ρ c main_v79 (by decide)).trans
    ((show StableHlo.after hostOps2 (W4 m ρ c) (Proc.devRef .tc main_v79) = W4 m ρ c (Proc.devRef .tc main_v79) by not_written).trans
      ((W4_of_ne m ρ c main_v79 (by decide)).trans
        (show StableHlo.after hostOps1 (W2 m ρ c) (Proc.devRef .tc main_v79) = W2 m ρ c (Proc.devRef .tc main_v79) by not_written)))

theorem W6_v83 (c : Dev nD) : W6 m ρ c (Proc.devRef .tc main_v83) = W4 m ρ c (Proc.devRef .tc main_v83) :=
  (W6_of_ne m ρ c main_v83 (by decide)).trans
    (show StableHlo.after hostOps2 (W4 m ρ c) (Proc.devRef .tc main_v83) = W4 m ρ c (Proc.devRef .tc main_v83) by not_written)

end Cert.Sage

end
-- ==== Proof.LibRowBias.lean ====
/-
  A vector of length N laid along the second axis of a two-axis array, read at an index: reshaped to 1×N it is the
  row `rowOf b`; broadcast to 1×N along axis 1 and then to M×N along both axes it reads, at (p, q), the vector at q.
-/
import Idealize.ShloMosaic.Lib.ValueIdx
import Idealize.ShloMosaic.Lib.ValueLayout
import Idealize.ShloMosaic.Lib.Pipeline.Value

noncomputable section

namespace Cert.LibRowBias

open Idealize.ShloMosaic Idealize.ShloMosaic.ValueIdx

variable {α : Type} {M N : ℕ}

/-- The 1×N array whose one row is the vector `b`. -/
def rowOf (b : (⟨1, ![N]⟩ : Shape).Idx → α) : (⟨2, ![1, N]⟩ : Shape).Idx → α :=
  fun j => b (ix1 ⟨(j 1).val, (j 1).isLt⟩)

theorem rowOf_ix2 (b : (⟨1, ![N]⟩ : Shape).Idx → α) (u : Fin 1) (q : Fin N) : rowOf b (ix2 u q) = b (ix1 q) := rfl

/-- A length-N vector reshaped to 1×N is its row. -/
theorem reshape_eq_rowOf (b : (⟨1, ![N]⟩ : Shape).Idx → α) (h : (⟨1, ![N]⟩ : Shape).ShapeCasts ⟨2, ![1, N]⟩) :
    shapeCast ⟨2, ![1, N]⟩ b h = rowOf b := by
  funext j
  obtain ⟨u, q, rfl⟩ : ∃ (u : Fin 1) (q : Fin N), j = ix2 u q := ⟨j 0, j 1, eq_ix2 j⟩
  rw [shapeCast_a_1a_apply b h u q, rowOf_ix2]

/-- The vector broadcast along axis 1 to 1×N, read at (u, q). -/
theorem bcast_1N_apply (b : (⟨1, ![N]⟩ : Shape).Idx → α) (h : (⟨1, ![N]⟩ : Shape).BroadcastsInDim ⟨2, ![1, N]⟩ ![1])
    (u : Fin 1) (q : Fin N) : broadcastInDim ⟨2, ![1, N]⟩ ![1] h b (ix2 u q) = b (ix1 q) := by
  refine broadcastInDim_apply ![1] h b (ix2 u q) (ix1 q) fun ax => ?_
  match ax with
  | ⟨0, _⟩ =>
    show q.val = if N = 1 then 0 else q.val
    split
    · have := q.isLt; omega
    · rfl

/-- A 1×N array broadcast along both axes to M×N, read at (p, q), is its row at q. -/
theorem bcast_MN_apply (r : (⟨2, ![1, N]⟩ : Shape).Idx → α) (h : (⟨2, ![1, N]⟩ : Shape).BroadcastsInDim ⟨2, ![M, N]⟩ ![0, 1])
    (p : Fin M) (q : Fin N) : broadcastInDim ⟨2, ![M, N]⟩ ![0, 1] h r (ix2 p q) = r (ix2 (0 : Fin 1) q) := by
  refine broadcastInDim_apply ![0, 1] h r (ix2 p q) (ix2 (0 : Fin 1) q) fun ax => ?_
  match ax with
  | ⟨0, _⟩ => rfl
  | ⟨1, _⟩ =>
    show q.val = if N = 1 then 0 else q.val
    split
    · have := q.isLt; omega
    · rfl

/-- The vector broadcast to 1×N and then to M×N reads, at (p, q), the vector at q. -/
theorem bcast_row_apply (b : (⟨1, ![N]⟩ : Shape).Idx → α) (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  rw [bcast_MN_apply, bcast_1N_apply]

end Cert.LibRowBias

end
-- ==== Proof.KernelValue.lean ====
/-
  The idealized kernel program's three results as functions of its arguments.

  Each region's result array is the head's (or the update's) array of what the region found in its operand arrays;
  the region found the first host stretch's means, the arguments themselves, and the bias, head-bias and slope
  vectors laid out as one row (a length-N vector reshaped to 1×N reads, at (0, q), the vector at q); and the two heads'
  result arrays are not touched after their regions.  So every execution ends with the three results at the
  specification's arrays of the launch memory's arguments, the arguments unchanged.
-/
import proofs.«154493_j32822140076341_2_alg».proof.Proof.KernelRun
import proofs.«154493_j32822140076341_2_alg».proof.Proof.Final0
import proofs.«154493_j32822140076341_2_alg».proof.Proof.Final1
import proofs.«154493_j32822140076341_2_alg».proof.Proof.Final2
import proofs.«154493_j32822140076341_2_alg».proof.Proof.EntryMeans
import proofs.«154493_j32822140076341_2_alg».proof.Proof.EntryArgs
import proofs.«154493_j32822140076341_2_alg».proof.Proof.LibRowBias

set_option maxRecDepth 16384

noncomputable section

namespace Cert.Sage

open Cert.KernelIdeal Cert.KernelIdeal.Gen
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-! ## The reshaped vectors at the regions' entries -/

set_option maxHeartbeats 4000000 in
theorem V1_v76 (c : Dev nD) : V1 m ρ c main_v76 = shapeCast S1x128 (m ((c : Thread nD τ).loc main_arg13)) shapeCasts_S128_S1x128 := by
  show StableHlo.after hostOps0 (W0 m ρ c) (Proc.devRef .tc main_v76) = _
  after_results_simp
  rfl

set_option maxHeartbeats 4000000 in
theorem V1_v77 (c : Dev nD) : V1 m ρ c main_v77 = shapeCast S1x1 (m ((c : Thread nD τ).loc main_arg24)) shapeCasts_S1_S1x1 := by
  show StableHlo.after hostOps0 (W0 m ρ c) (Proc.devRef .tc main_v77) = _
  after_results_simp
  rfl

set_option maxHeartbeats 4000000 in
theorem V1_v78 (c : Dev nD) : V1 m ρ c main_v78 = shapeCast S1x1 (m ((c : Thread nD τ).loc main_arg25)) shapeCasts_S1_S1x1 := by
  show StableHlo.after hostOps0 (W0 m ρ c) (Proc.devRef .tc main_v78) = _
  after_results_simp
  rfl

set_option maxHeartbeats 4000000 in
theorem V3_v80 (c : Dev nD) : V3 m ρ c main_v80 = shapeCast S1x128 (m ((c : Thread nD τ).loc main_arg22)) shapeCasts_S128_S1x128 := by
  show StableHlo.after hostOps1 (W2 m ρ c) (Proc.devRef .tc main_v80) = _
  after_results_simp
  rw [W2_a22 m ρ c]
  rfl

set_option maxHeartbeats 4000000 in
theorem V3_v81 (c : Dev nD) : V3 m ρ c main_v81 = shapeCast S1x1 (m ((c : Thread nD τ).loc main_arg24)) shapeCasts_S1_S1x1 := by
  show StableHlo.after hostOps1 (W2 m ρ c) (Proc.devRef .tc main_v81) = _
  after_results_simp
  rw [W2_a24 m ρ c]
  rfl

set_option maxHeartbeats 4000000 in
theorem V3_v82 (c : Dev nD) : V3 m ρ c main_v82 = shapeCast S1x1 (m ((c : Thread nD τ).loc main_arg25)) shapeCasts_S1_S1x1 := by
  show StableHlo.after hostOps1 (W2 m ρ c) (Proc.devRef .tc main_v82) = _
  after_results_simp
  rw [W2_a25 m ρ c]
  rfl

set_option maxHeartbeats 4000000 in
theorem V5_v84 (c : Dev nD) : V5 m ρ c main_v84 = shapeCast S1x128 (m ((c : Thread nD τ).loc main_arg16)) shapeCasts_S128_S1x128 := by
  show StableHlo.after hostOps2 (W4 m ρ c) (Proc.devRef .tc main_v84) = _
  after_results_simp
  rw [W4_a16 m ρ c]
  rfl

set_option maxHeartbeats 4000000 in
theorem V5_v85 (c : Dev nD) : V5 m ρ c main_v85 = shapeCast S1x128 (m ((c : Thread nD τ).loc main_arg19)) shapeCasts_S128_S1x128 := by
  show StableHlo.after hostOps2 (W4 m ρ c) (Proc.devRef .tc main_v85) = _
  after_results_simp
  rw [W4_a19 m ρ c]
  rfl

/-- A bias row at a region's entry, read along its one row, is the bias vector. -/
theorem row_of_reshape (b : FVec Ideal S128 .f32) :
    (fun k : Fin 128 => shapeCast S1x128 b shapeCasts_S128_S1x128 (ix2 0 k)) = fun k => b (ix1 k) := by
  funext k
  rw [LibRowBias.reshape_eq_rowOf]
  rfl

/-- A one-entry vector reshaped to 1×1, read at its entry. -/
theorem one_of_reshape (b : FVec Ideal S1 .f32) : shapeCast S1x1 b shapeCasts_S1_S1x1 (ix2 0 0) = b (ix1 0) := by
  rw [LibRowBias.reshape_eq_rowOf]
  rfl

/-! ## The three results -/

theorem gw_value (c : Dev nD) :
    W6 m ρ c (Proc.devRef .tc main_v79)
      = headArr (N := 100000) (Cert.ReferenceIdeal.Read.val_main_v18 (F := Ideal) (m ((c : Thread nD τ).loc main_arg0)) (m ((c : Thread nD τ).loc main_arg3)) (m ((c : Thread nD τ).loc main_arg4)))
          (m ((c : Thread nD τ).loc main_arg1)) (m ((c : Thread nD τ).loc main_arg11)) (m ((c : Thread nD τ).loc main_arg12)) (fun k => (m ((c : Thread nD τ).loc main_arg13)) (ix1 k)) (m ((c : Thread nD τ).loc main_arg23)) ((m ((c : Thread nD τ).loc main_arg24)) (ix1 0)) ((m ((c : Thread nD τ).loc main_arg25)) (ix1 0)) := by
  refine (W6_v79 m ρ c).trans ((W2_arr m ρ c 8).trans ((final0 (V1 m ρ) c).trans ?_))
  rw [V1_v76, V1_v77, V1_v78, row_of_reshape, one_of_reshape, one_of_reshape,
    show V1 m ρ c main_v18 = _ from W1_v18 m ρ c, show V1 m ρ c main_arg1 = _ from W1_a1 m ρ c,
    show V1 m ρ c main_arg11 = _ from W1_a11 m ρ c, show V1 m ρ c main_arg12 = _ from W1_a12 m ρ c,
    show V1 m ρ c main_arg23 = _ from W1_a23 m ρ c]

theorem sw_value (c : Dev nD) :
    W6 m ρ c (Proc.devRef .tc main_v83)
      = headArr (N := 20000) (Cert.ReferenceIdeal.Read.val_main_v96 (F := Ideal) (m ((c : Thread nD τ).loc main_arg0)) (m ((c : Thread nD τ).loc main_arg9)) (m ((c : Thread nD τ).loc main_arg10)))
          (m ((c : Thread nD τ).loc main_arg2)) (m ((c : Thread nD τ).loc main_arg20)) (m ((c : Thread nD τ).loc main_arg21)) (fun k => (m ((c : Thread nD τ).loc main_arg22)) (ix1 k)) (m ((c : Thread nD τ).loc main_arg23)) ((m ((c : Thread nD τ).loc main_arg24)) (ix1 0)) ((m ((c : Thread nD τ).loc main_arg25)) (ix1 0)) := by
  refine (W6_v83 m ρ c).trans ((W4_arr m ρ c 8).trans ((final1 (V3 m ρ) c).trans ?_))
  rw [V3_v80, V3_v81, V3_v82, row_of_reshape, one_of_reshape, one_of_reshape,
    show V3 m ρ c main_v75 = _ from (W3_v75 m ρ c).trans (W1_v75 m ρ c), show V3 m ρ c main_arg2 = _ from W3_a2 m ρ c,
    show V3 m ρ c main_arg20 = _ from W3_a20 m ρ c, show V3 m ρ c main_arg21 = _ from W3_a21 m ρ c,
    show V3 m ρ c main_arg23 = _ from W3_a23 m ρ c]

theorem pfas_value (c : Dev nD) :
    W6 m ρ c (Proc.devRef .tc main_v86)
      = pairArr (N := 20000) (Cert.ReferenceIdeal.Read.val_main_v44 (F := Ideal) (m ((c : Thread nD τ).loc main_arg1)) (m ((c : Thread nD τ).loc main_arg5)) (m ((c : Thread nD τ).loc main_arg6)))
          (m ((c : Thread nD τ).loc main_arg0)) (m ((c : Thread nD τ).loc main_arg14)) (m ((c : Thread nD τ).loc main_arg15)) (fun k => (m ((c : Thread nD τ).loc main_arg16)) (ix1 k))
          (Cert.ReferenceIdeal.Read.val_main_v69 (F := Ideal) (m ((c : Thread nD τ).loc main_arg2)) (m ((c : Thread nD τ).loc main_arg7)) (m ((c : Thread nD τ).loc main_arg8)))
          (m ((c : Thread nD τ).loc main_arg17)) (m ((c : Thread nD τ).loc main_arg18)) (fun k => (m ((c : Thread nD τ).loc main_arg19)) (ix1 k)) := by
  refine (W6_arr m ρ c 9).trans ((final2 (V5 m ρ) c).trans ?_)
  rw [V5_v84, V5_v85, row_of_reshape, row_of_reshape,
    show V5 m ρ c main_v37 = _ from (W5_v37 m ρ c).trans (W1_v37 m ρ c), show V5 m ρ c main_v56 = _ from (W5_v56 m ρ c).trans (W1_v56 m ρ c),
    show V5 m ρ c main_arg0 = _ from W5_a0 m ρ c, show V5 m ρ c main_arg14 = _ from W5_a14 m ρ c,
    show V5 m ρ c main_arg15 = _ from W5_a15 m ρ c, show V5 m ρ c main_arg17 = _ from W5_a17 m ρ c,
    show V5 m ρ c main_arg18 = _ from W5_a18 m ρ c]

/-! ## The run -/

/-- Every execution of the idealized kernel program ends with its three results at the specification's arrays of the
    launch memory's arguments, and the arguments unchanged. -/
theorem kernel_run : θ_run defs (onTc (τ := τ) (main (F := Ideal))) ⟨m, fun _ => 0, ρ⟩ (fun r => ∀ c : Dev nD,
      r.2.mem ((c.tc : Thread nD τ).loc main_v86)
        = pairArr (N := 20000) (Cert.ReferenceIdeal.Read.val_main_v44 (F := Ideal) (m ((c : Thread nD τ).loc main_arg1)) (m ((c : Thread nD τ).loc main_arg5)) (m ((c : Thread nD τ).loc main_arg6)))
          (m ((c : Thread nD τ).loc main_arg0)) (m ((c : Thread nD τ).loc main_arg14)) (m ((c : Thread nD τ).loc main_arg15)) (fun k => (m ((c : Thread nD τ).loc main_arg16)) (ix1 k))
          (Cert.ReferenceIdeal.Read.val_main_v69 (F := Ideal) (m ((c : Thread nD τ).loc main_arg2)) (m ((c : Thread nD τ).loc main_arg7)) (m ((c : Thread nD τ).loc main_arg8)))
          (m ((c : Thread nD τ).loc main_arg17)) (m ((c : Thread nD τ).loc main_arg18)) (fun k => (m ((c : Thread nD τ).loc main_arg19)) (ix1 k))
      ∧ r.2.mem ((c.tc : Thread nD τ).loc main_v79)
        = headArr (N := 100000) (Cert.ReferenceIdeal.Read.val_main_v18 (F := Ideal) (m ((c : Thread nD τ).loc main_arg0)) (m ((c : Thread nD τ).loc main_arg3)) (m ((c : Thread nD τ).loc main_arg4)))
          (m ((c : Thread nD τ).loc main_arg1)) (m ((c : Thread nD τ).loc main_arg11)) (m ((c : Thread nD τ).loc main_arg12)) (fun k => (m ((c : Thread nD τ).loc main_arg13)) (ix1 k)) (m ((c : Thread nD τ).loc main_arg23)) ((m ((c : Thread nD τ).loc main_arg24)) (ix1 0)) ((m ((c : Thread nD τ).loc main_arg25)) (ix1 0))
      ∧ r.2.mem ((c.tc : Thread nD τ).loc main_v83)
        = headArr (N := 20000) (Cert.ReferenceIdeal.Read.val_main_v96 (F := Ideal) (m ((c : Thread nD τ).loc main_arg0)) (m ((c : Thread nD τ).loc main_arg9)) (m ((c : Thread nD τ).loc main_arg10)))
          (m ((c : Thread nD τ).loc main_arg2)) (m ((c : Thread nD τ).loc main_arg20)) (m ((c : Thread nD τ).loc main_arg21)) (fun k => (m ((c : Thread nD τ).loc main_arg22)) (ix1 k)) (m ((c : Thread nD τ).loc main_arg23)) ((m ((c : Thread nD τ).loc main_arg24)) (ix1 0)) ((m ((c : Thread nD τ).loc main_arg25)) (ix1 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) :=
  (θ_run defs _ _).mono (fun r h c => ⟨(h c).1.trans (pfas_value m ρ c), (h c).2.1.trans (gw_value m ρ c),
      (h c).2.2.1.trans (sw_value m ρ c), (h c).2.2.2⟩)
    (Cert.KernelIdeal.Results.run_results m ρ)

end Cert.Sage

end
-- ==== Proof.RefSide.lean ====
/-
  The reference program's three results, read entry by entry, are the head's and the update's arrays of its own four
  mean stages and the arguments: each host product is the plain sum over the contracted axis, each bias is broadcast
  along the rows, each rectifier and the leaky rectifier act entry by entry, in the grouping the specification states.
-/
import proofs.«154493_j32822140076341_2_alg».proof.Proof.Gen.ReferenceIdeal.Read
import proofs.«154493_j32822140076341_2_alg».proof.Proof.SageSpec

noncomputable section

namespace Cert.Sage.Ref

open Cert.ReferenceIdeal Cert.ReferenceIdeal.Read Cert.Sage Idealize.ShloMosaic Idealize.ShloMosaic.ValueIdx

/-! ### The 100000-node head -/

/-- Channel k of node r before the rectifier. -/
theorem head_gw_combine (x0 : (⟨S20000x64, .f32⟩ : BufTy).Contents (Elt Ideal)) (x1 : (⟨S100000x64, .f32⟩ : BufTy).Contents (Elt Ideal)) (x3 x4 : (⟨S1600000, .i32⟩ : BufTy).Contents (Elt Ideal)) (x11 x12 : (⟨S64x128, .f32⟩ : BufTy).Contents (Elt Ideal)) (x13 : (⟨S128, .f32⟩ : BufTy).Contents (Elt Ideal)) (r : Fin 100000) (k : Fin 128) :
    val_main_v24 (F := Ideal) x0 x1 x3 x4 x11 x12 x13 (ix2 r k) = combine (val_main_v18 (F := Ideal) x0 x3 x4) x1 x11 x12 (fun k => x13 (ix1 k)) r k := by
  have hlL : ∀ j : Fin 64, lidx_main_v19 (ix2 r k) j = ix2 r j := fun j => funext fun a => Fin.ext (by match a with | ⟨0, _⟩ => rfl | ⟨1, _⟩ => rfl)
  have hrL : ∀ j : Fin 64, ridx_main_v19 (ix2 r k) j = ix2 j k := fun j => funext fun a => Fin.ext (by match a with | ⟨0, _⟩ => rfl | ⟨1, _⟩ => rfl)
  have hlR : ∀ j : Fin 64, lidx_main_v20 (ix2 r k) j = ix2 r j := fun j => funext fun a => Fin.ext (by match a with | ⟨0, _⟩ => rfl | ⟨1, _⟩ => rfl)
  have hrR : ∀ j : Fin 64, ridx_main_v20 (ix2 r k) j = ix2 j k := fun j => funext fun a => Fin.ext (by match a with | ⟨0, _⟩ => rfl | ⟨1, _⟩ => rfl)
  have hb : idx_main_v22 (idx_main_v23 (ix2 r k)) = ix1 k := funext fun a => Fin.ext (by match a with | ⟨0, _⟩ => rfl)
  unfold combine
  rw [val_main_v24_apply, val_main_v21_apply, val_main_v19_apply, val_main_v20_apply, val_main_v23_apply,
    val_main_v22_apply, hb, Ideal.addf_def, Ideal.addf_def]
  refine congrArg₂ (· + ·) (congrArg₂ (· + ·) (Finset.sum_congr rfl fun j _ => ?_) (Finset.sum_congr rfl fun j _ => ?_)) rfl
  · rw [hlL, hrL]
  · rw [hlR, hrR]

/-- Channel k of node r after the rectifier. -/
theorem head_gw_relu (x0 : (⟨S20000x64, .f32⟩ : BufTy).Contents (Elt Ideal)) (x1 : (⟨S100000x64, .f32⟩ : BufTy).Contents (Elt Ideal)) (x3 x4 : (⟨S1600000, .i32⟩ : BufTy).Contents (Elt Ideal)) (x11 x12 : (⟨S64x128, .f32⟩ : BufTy).Contents (Elt Ideal)) (x13 : (⟨S128, .f32⟩ : BufTy).Contents (Elt Ideal)) (r : Fin 100000) (k : Fin 128) :
    val_main_v25 (F := Ideal) x0 x1 x3 x4 x11 x12 x13 (ix2 r k) = max (combine (val_main_v18 (F := Ideal) x0 x3 x4) x1 x11 x12 (fun k => x13 (ix1 k)) r k) z32 := by
  rw [val_main_v25_apply, val_main_call0_v0_apply, val_main_call0_cst_apply, head_gw_combine]
  rfl

/-- Node r's scalar before the leaky rectifier. -/
theorem head_gw_pre (x0 : (⟨S20000x64, .f32⟩ : BufTy).Contents (Elt Ideal)) (x1 : (⟨S100000x64, .f32⟩ : BufTy).Contents (Elt Ideal)) (x3 x4 : (⟨S1600000, .i32⟩ : BufTy).Contents (Elt Ideal)) (x11 x12 : (⟨S64x128, .f32⟩ : BufTy).Contents (Elt Ideal)) (x13 : (⟨S128, .f32⟩ : BufTy).Contents (Elt Ideal)) (x23 : (⟨S128x1, .f32⟩ : BufTy).Contents (Elt Ideal)) (x24 : (⟨S1, .f32⟩ : BufTy).Contents (Elt Ideal)) (r : Fin 100000) :
    val_main_v107 (F := Ideal) x0 x1 x3 x4 x11 x12 x13 x23 x24 (ix2 r 0)
      = ∑ k : Fin 128, max (combine (val_main_v18 (F := Ideal) x0 x3 x4) x1 x11 x12 (fun k => x13 (ix1 k)) r k) z32 * x23 (ix2 k 0) + x24 (ix1 0) := by
  have hlO : ∀ k : Fin 128, lidx_main_v104 (ix2 r (0 : Fin 1)) k = ix2 r k := fun k => funext fun a => Fin.ext (by match a with | ⟨0, _⟩ => rfl | ⟨1, _⟩ => rfl)
  have hrO : ∀ k : Fin 128, ridx_main_v104 (ix2 r (0 : Fin 1)) k = ix2 k 0 := fun k => funext fun a => Fin.ext (by match a with | ⟨0, _⟩ => rfl | ⟨1, _⟩ => rfl)
  have hbl : idx_main_v105 (idx_main_v106 (ix2 r (0 : Fin 1))) = ix1 0 := funext fun a => Fin.ext (by match a with | ⟨0, _⟩ => rfl)
  rw [val_main_v107_apply, val_main_v104_apply, val_main_v106_apply, val_main_v105_apply, hbl, Ideal.addf_def]
  refine congrArg₂ (· + ·) (Finset.sum_congr rfl fun k _ => ?_) rfl
  rw [hlO, hrO, head_gw_relu]

/-- The reference's 100000-node head result is the head's array of its own mean stage and the arguments. -/
theorem head_gw (x0 : (⟨S20000x64, .f32⟩ : BufTy).Contents (Elt Ideal)) (x1 : (⟨S100000x64, .f32⟩ : BufTy).Contents (Elt Ideal)) (x3 x4 : (⟨S1600000, .i32⟩ : BufTy).Contents (Elt Ideal)) (x11 x12 : (⟨S64x128, .f32⟩ : BufTy).Contents (Elt Ideal)) (x13 : (⟨S128, .f32⟩ : BufTy).Contents (Elt Ideal)) (x23 : (⟨S128x1, .f32⟩ : BufTy).Contents (Elt Ideal)) (x24 x25 : (⟨S1, .f32⟩ : BufTy).Contents (Elt Ideal)) :
    val_main_v113 (F := Ideal) x0 x1 x3 x4 x11 x12 x13 x23 x24 x25
      = headArr (N := 100000) (val_main_v18 (F := Ideal) x0 x3 x4) x1 x11 x12 (fun k => x13 (ix1 k)) x23
          (x24 (ix1 0)) (x25 (ix1 0)) := by
  funext i
  obtain ⟨r, u, rfl⟩ : ∃ (r : Fin 100000) (u : Fin 1), i = ix2 r u := ⟨i 0, i 1, eq_ix2 i⟩
  obtain rfl : u = 0 := Subsingleton.elim _ _
  have hal : idx_main_v110 (idx_main_v111 (ix2 r (0 : Fin 1))) = ix1 0 := funext fun a => Fin.ext (by match a with | ⟨0, _⟩ => rfl)
  rw [headArr_ix2]
  unfold headAt leaky
  rw [val_main_v113_apply, val_main_v109_apply, val_main_v112_apply, val_main_v111_apply, val_main_v110_apply,
    val_main_v108_apply, val_main_cst_22_apply, hal, head_gw_pre]
  rfl

/-! ### The 20000-node head -/

/-- Channel k of node r before the rectifier. -/
theorem head_sw_combine (x0 x2 : (⟨S20000x64, .f32⟩ : BufTy).Contents (Elt Ideal)) (x9 x10 : (⟨S400000, .i32⟩ : BufTy).Contents (Elt Ideal)) (x20 x21 : (⟨S64x128, .f32⟩ : BufTy).Contents (Elt Ideal)) (x22 : (⟨S128, .f32⟩ : BufTy).Contents (Elt Ideal)) (r : Fin 20000) (k : Fin 128) :
    val_main_v102 (F := Ideal) x0 x2 x9 x10 x20 x21 x22 (ix2 r k) = combine (val_main_v96 (F := Ideal) x0 x9 x10) x2 x20 x21 (fun k => x22 (ix1 k)) r k := by
  have hlL : ∀ j : Fin 64, lidx_main_v97 (ix2 r k) j = ix2 r j := fun j => funext fun a => Fin.ext (by match a with | ⟨0, _⟩ => rfl | ⟨1, _⟩ => rfl)
  have hrL : ∀ j : Fin 64, ridx_main_v97 (ix2 r k) j = ix2 j k := fun j => funext fun a => Fin.ext (by match a with | ⟨0, _⟩ => rfl | ⟨1, _⟩ => rfl)
  have hlR : ∀ j : Fin 64, lidx_main_v98 (ix2 r k) j = ix2 r j := fun j => funext fun a => Fin.ext (by match a with | ⟨0, _⟩ => rfl | ⟨1, _⟩ => rfl)
  have hrR : ∀ j : Fin 64, ridx_main_v98 (ix2 r k) j = ix2 j k := fun j => funext fun a => Fin.ext (by match a with | ⟨0, _⟩ => rfl | ⟨1, _⟩ => rfl)
  have hb : idx_main_v100 (idx_main_v101 (ix2 r k)) = ix1 k := funext fun a => Fin.ext (by match a with | ⟨0, _⟩ => rfl)
  unfold combine
  rw [val_main_v102_apply, val_main_v99_apply, val_main_v97_apply, val_main_v98_apply, val_main_v101_apply,
    val_main_v100_apply, hb, Ideal.addf_def, Ideal.addf_def]
  refine congrArg₂ (· + ·) (congrArg₂ (· + ·) (Finset.sum_congr rfl fun j _ => ?_) (Finset.sum_congr rfl fun j _ => ?_)) rfl
  · rw [hlL, hrL]
  · rw [hlR, hrR]

/-- Channel k of node r after the rectifier. -/
theorem head_sw_relu (x0 x2 : (⟨S20000x64, .f32⟩ : BufTy).Contents (Elt Ideal)) (x9 x10 : (⟨S400000, .i32⟩ : BufTy).Contents (Elt Ideal)) (x20 x21 : (⟨S64x128, .f32⟩ : BufTy).Contents (Elt Ideal)) (x22 : (⟨S128, .f32⟩ : BufTy).Contents (Elt Ideal)) (r : Fin 20000) (k : Fin 128) :
    val_main_v103 (F := Ideal) x0 x2 x9 x10 x20 x21 x22 (ix2 r k) = max (combine (val_main_v96 (F := Ideal) x0 x9 x10) x2 x20 x21 (fun k => x22 (ix1 k)) r k) z32 := by
  rw [val_main_v103_apply, val_main_call2_v0_apply, val_main_call2_cst_apply, head_sw_combine]
  rfl

/-- Node r's scalar before the leaky rectifier. -/
theorem head_sw_pre (x0 x2 : (⟨S20000x64, .f32⟩ : BufTy).Contents (Elt Ideal)) (x9 x10 : (⟨S400000, .i32⟩ : BufTy).Contents (Elt Ideal)) (x20 x21 : (⟨S64x128, .f32⟩ : BufTy).Contents (Elt Ideal)) (x22 : (⟨S128, .f32⟩ : BufTy).Contents (Elt Ideal)) (x23 : (⟨S128x1, .f32⟩ : BufTy).Contents (Elt Ideal)) (x24 : (⟨S1, .f32⟩ : BufTy).Contents (Elt Ideal)) (r : Fin 20000) :
    val_main_v117 (F := Ideal) x0 x2 x9 x10 x20 x21 x22 x23 x24 (ix2 r 0)
      = ∑ k : Fin 128, max (combine (val_main_v96 (F := Ideal) x0 x9 x10) x2 x20 x21 (fun k => x22 (ix1 k)) r k) z32 * x23 (ix2 k 0) + x24 (ix1 0) := by
  have hlO : ∀ k : Fin 128, lidx_main_v114 (ix2 r (0 : Fin 1)) k = ix2 r k := fun k => funext fun a => Fin.ext (by match a with | ⟨0, _⟩ => rfl | ⟨1, _⟩ => rfl)
  have hrO : ∀ k : Fin 128, ridx_main_v114 (ix2 r (0 : Fin 1)) k = ix2 k 0 := fun k => funext fun a => Fin.ext (by match a with | ⟨0, _⟩ => rfl | ⟨1, _⟩ => rfl)
  have hbl : idx_main_v115 (idx_main_v116 (ix2 r (0 : Fin 1))) = ix1 0 := funext fun a => Fin.ext (by match a with | ⟨0, _⟩ => rfl)
  rw [val_main_v117_apply, val_main_v114_apply, val_main_v116_apply, val_main_v115_apply, hbl, Ideal.addf_def]
  refine congrArg₂ (· + ·) (Finset.sum_congr rfl fun k _ => ?_) rfl
  rw [hlO, hrO, head_sw_relu]

/-- The reference's 20000-node head result is the head's array of its own mean stage and the arguments. -/
theorem head_sw (x0 x2 : (⟨S20000x64, .f32⟩ : BufTy).Contents (Elt Ideal)) (x9 x10 : (⟨S400000, .i32⟩ : BufTy).Contents (Elt Ideal)) (x20 x21 : (⟨S64x128, .f32⟩ : BufTy).Contents (Elt Ideal)) (x22 : (⟨S128, .f32⟩ : BufTy).Contents (Elt Ideal)) (x23 : (⟨S128x1, .f32⟩ : BufTy).Contents (Elt Ideal)) (x24 x25 : (⟨S1, .f32⟩ : BufTy).Contents (Elt Ideal)) :
    val_main_v123 (F := Ideal) x0 x2 x9 x10 x20 x21 x22 x23 x24 x25
      = headArr (N := 20000) (val_main_v96 (F := Ideal) x0 x9 x10) x2 x20 x21 (fun k => x22 (ix1 k)) x23
          (x24 (ix1 0)) (x25 (ix1 0)) := by
  funext i
  obtain ⟨r, u, rfl⟩ : ∃ (r : Fin 20000) (u : Fin 1), i = ix2 r u := ⟨i 0, i 1, eq_ix2 i⟩
  obtain rfl : u = 0 := Subsingleton.elim _ _
  have hal : idx_main_v120 (idx_main_v121 (ix2 r (0 : Fin 1))) = ix1 0 := funext fun a => Fin.ext (by match a with | ⟨0, _⟩ => rfl)
  rw [headArr_ix2]
  unfold headAt leaky
  rw [val_main_v123_apply, val_main_v119_apply, val_main_v122_apply, val_main_v121_apply, val_main_v120_apply,
    val_main_v118_apply, val_main_cst_23_apply, hal, head_sw_pre]
  rfl

/-! ### The two-relation update -/

/-- Channel k of node r of the first relation's combine. -/
theorem pair_gp (x0 : (⟨S20000x64, .f32⟩ : BufTy).Contents (Elt Ideal)) (x1 : (⟨S100000x64, .f32⟩ : BufTy).Contents (Elt Ideal)) (x5 x6 : (⟨S1600000, .i32⟩ : BufTy).Contents (Elt Ideal)) (x14 x15 : (⟨S64x128, .f32⟩ : BufTy).Contents (Elt Ideal)) (x16 : (⟨S128, .f32⟩ : BufTy).Contents (Elt Ideal)) (r : Fin 20000) (k : Fin 128) :
    val_main_v50 (F := Ideal) x0 x1 x5 x6 x14 x15 x16 (ix2 r k)
      = combine (val_main_v44 (F := Ideal) x1 x5 x6) x0 x14 x15 (fun k => x16 (ix1 k)) r k := by
  have hlL : ∀ j : Fin 64, lidx_main_v45 (ix2 r k) j = ix2 r j := fun j => funext fun a => Fin.ext (by match a with | ⟨0, _⟩ => rfl | ⟨1, _⟩ => rfl)
  have hrL : ∀ j : Fin 64, ridx_main_v45 (ix2 r k) j = ix2 j k := fun j => funext fun a => Fin.ext (by match a with | ⟨0, _⟩ => rfl | ⟨1, _⟩ => rfl)
  have hlR : ∀ j : Fin 64, lidx_main_v46 (ix2 r k) j = ix2 r j := fun j => funext fun a => Fin.ext (by match a with | ⟨0, _⟩ => rfl | ⟨1, _⟩ => rfl)
  have hrR : ∀ j : Fin 64, ridx_main_v46 (ix2 r k) j = ix2 j k := fun j => funext fun a => Fin.ext (by match a with | ⟨0, _⟩ => rfl | ⟨1, _⟩ => rfl)
  have hb : idx_main_v48 (idx_main_v49 (ix2 r k)) = ix1 k := funext fun a => Fin.ext (by match a with | ⟨0, _⟩ => rfl)
  unfold combine
  rw [val_main_v50_apply, val_main_v47_apply, val_main_v45_apply, val_main_v46_apply, val_main_v49_apply,
    val_main_v48_apply, hb, Ideal.addf_def, Ideal.addf_def]
  refine congrArg₂ (· + ·) (congrArg₂ (· + ·) (Finset.sum_congr rfl fun j _ => ?_) (Finset.sum_congr rfl fun j _ => ?_)) rfl
  · rw [hlL, hrL]
  · rw [hlR, hrR]

/-- Channel k of node r of the second relation's combine. -/
theorem pair_sp (x0 x2 : (⟨S20000x64, .f32⟩ : BufTy).Contents (Elt Ideal)) (x7 x8 : (⟨S400000, .i32⟩ : BufTy).Contents (Elt Ideal)) (x17 x18 : (⟨S64x128, .f32⟩ : BufTy).Contents (Elt Ideal)) (x19 : (⟨S128, .f32⟩ : BufTy).Contents (Elt Ideal)) (r : Fin 20000) (k : Fin 128) :
    val_main_v75 (F := Ideal) x0 x2 x7 x8 x17 x18 x19 (ix2 r k)
      = combine (val_main_v69 (F := Ideal) x2 x7 x8) x0 x17 x18 (fun k => x19 (ix1 k)) r k := by
  have hlL : ∀ j : Fin 64, lidx_main_v70 (ix2 r k) j = ix2 r j := fun j => funext fun a => Fin.ext (by match a with | ⟨0, _⟩ => rfl | ⟨1, _⟩ => rfl)
  have hrL : ∀ j : Fin 64, ridx_main_v70 (ix2 r k) j = ix2 j k := fun j => funext fun a => Fin.ext (by match a with | ⟨0, _⟩ => rfl | ⟨1, _⟩ => rfl)
  have hlR : ∀ j : Fin 64, lidx_main_v71 (ix2 r k) j = ix2 r j := fun j => funext fun a => Fin.ext (by match a with | ⟨0, _⟩ => rfl | ⟨1, _⟩ => rfl)
  have hrR : ∀ j : Fin 64, ridx_main_v71 (ix2 r k) j = ix2 j k := fun j => funext fun a => Fin.ext (by match a with | ⟨0, _⟩ => rfl | ⟨1, _⟩ => rfl)
  have hb : idx_main_v73 (idx_main_v74 (ix2 r k)) = ix1 k := funext fun a => Fin.ext (by match a with | ⟨0, _⟩ => rfl)
  unfold combine
  rw [val_main_v75_apply, val_main_v72_apply, val_main_v70_apply, val_main_v71_apply, val_main_v74_apply,
    val_main_v73_apply, hb, Ideal.addf_def, Ideal.addf_def]
  refine congrArg₂ (· + ·) (congrArg₂ (· + ·) (Finset.sum_congr rfl fun j _ => ?_) (Finset.sum_congr rfl fun j _ => ?_)) rfl
  · rw [hlL, hrL]
  · rw [hlR, hrR]

/-- The reference's two-relation result is the update's array of its own two mean stages and the arguments. -/
theorem pair_pfas (x0 : (⟨S20000x64, .f32⟩ : BufTy).Contents (Elt Ideal)) (x1 : (⟨S100000x64, .f32⟩ : BufTy).Contents (Elt Ideal)) (x2 : (⟨S20000x64, .f32⟩ : BufTy).Contents (Elt Ideal)) (x5 x6 : (⟨S1600000, .i32⟩ : BufTy).Contents (Elt Ideal)) (x7 x8 : (⟨S400000, .i32⟩ : BufTy).Contents (Elt Ideal))
    (x14 x15 : (⟨S64x128, .f32⟩ : BufTy).Contents (Elt Ideal)) (x16 : (⟨S128, .f32⟩ : BufTy).Contents (Elt Ideal)) (x17 x18 : (⟨S64x128, .f32⟩ : BufTy).Contents (Elt Ideal)) (x19 : (⟨S128, .f32⟩ : BufTy).Contents (Elt Ideal)) :
    val_main_v77 (F := Ideal) x0 x1 x2 x5 x6 x7 x8 x14 x15 x16 x17 x18 x19
      = pairArr (N := 20000) (val_main_v44 (F := Ideal) x1 x5 x6) x0 x14 x15 (fun k => x16 (ix1 k))
          (val_main_v69 (F := Ideal) x2 x7 x8) x17 x18 (fun k => x19 (ix1 k)) := by
  funext i
  obtain ⟨r, k, rfl⟩ : ∃ (r : Fin 20000) (k : Fin 128), i = ix2 r k := ⟨i 0, i 1, eq_ix2 i⟩
  rw [pairArr_ix2, val_main_v77_apply, val_main_call1_v0_apply, val_main_call1_cst_apply, val_main_v76_apply, pair_gp, pair_sp]
  rfl

end Cert.Sage.Ref

end
-- ==== Proof.lean ====
/-
  The claim: the kernel program, its idealization and the idealized reference each run to the end without a fault
  and leave their arguments as launched; the idealization changes nothing (the ideal pass rewrote no operation); and
  at the extended reals the idealized kernel program and the idealized reference end with equal results.

  Both programs first form the same four neighbour means (gather, add into destination rows, count, divide by the
  count raised to at least one) by the same host operations of the same arguments.  The kernel program then computes
  each relation's node update in row blocks on the device — products of rows with 64×128 weights into zero
  accumulators, a bias row, the rectifier, and for the two heads a 128×1 product, a bias and the leaky rectifier —
  where the reference does the same arithmetic on whole arrays.  On the extended reals a change of float format is
  the identity and a product into a zero accumulator is the plain sum over the contracted axis, exactly the host's
  product; every sum is taken in the same order and every addition in the same grouping on both sides, so no
  algebraic law and no finiteness of the inputs is needed: the two sides are one function of the arguments
  (Proof/SageSpec.lean), entry by entry.
-/
import proofs.«154493_j32822140076341_2_alg».proof.Defs
import proofs.«154493_j32822140076341_2_alg».proof.Proof.Gen.Kernel
import proofs.«154493_j32822140076341_2_alg».proof.Proof.Gen.Kernel.Skeleton
import proofs.«154493_j32822140076341_2_alg».proof.Proof.Gen.Kernel.Launch
import proofs.«154493_j32822140076341_2_alg».proof.Proof.Gen.Kernel.Points
import proofs.«154493_j32822140076341_2_alg».proof.Proof.Gen.Kernel.Frame
import proofs.«154493_j32822140076341_2_alg».proof.Proof.Gen.KernelIdeal
import proofs.«154493_j32822140076341_2_alg».proof.Proof.Gen.KernelIdeal.Skeleton
import proofs.«154493_j32822140076341_2_alg».proof.Proof.Gen.KernelIdeal.Launch
import proofs.«154493_j32822140076341_2_alg».proof.Proof.Gen.KernelIdeal.Points
import proofs.«154493_j32822140076341_2_alg».proof.Proof.Gen.KernelIdeal.Frame
import proofs.«154493_j32822140076341_2_alg».proof.Proof.Gen.ReferenceIdeal
import proofs.«154493_j32822140076341_2_alg».proof.Proof.Gen.Pre_finite_inputs
import proofs.«154493_j32822140076341_2_alg».proof.Proof.Gen.ReferenceIdeal.Run
import proofs.«154493_j32822140076341_2_alg».proof.Proof.Gen.ReferenceIdeal.Read
import proofs.«154493_j32822140076341_2_alg».proof.Proof.KernelValue
import proofs.«154493_j32822140076341_2_alg».proof.Proof.RefSide
import Idealize.ShloMosaic.Adequacy
import Idealize.ShloMosaic.Init

set_option maxRecDepth 16384

noncomputable section

namespace Cert.Proof

open Idealize.ShloMosaic Idealize.SL.Sem

variable [hKernel : Cert.Kernel.Facts] [hKernelIdeal : Cert.KernelIdeal.Facts] [hReferenceIdeal : Cert.ReferenceIdeal.Facts]
  [hPre : Cert.Pre_finite_inputs.Facts]

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- Both runs end with each result at the specification's array of the (agreeing) arguments. -/
theorem algebraic : Cert.algebraic_KernelIdeal_ReferenceIdeal := by
  intro m ρ m' ρ' _ hagree
  refine ⟨_, _, _, Cert.Sage.kernel_run m ρ, ?_⟩
  refine (θ_run Cert.ReferenceIdeal.defs _ _).mono (fun _ h c => ⟨?_, ?_, ?_, (h c).2.2.2⟩)
    (Cert.ReferenceIdeal.Value.run (F := Ideal) m' ρ')
  · refine (h c).1.trans ((Cert.ReferenceIdeal.Read.val_main_v77_eq (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))).trans
      ((Cert.Sage.Ref.pair_pfas (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg14)) (m' ((c.tc : Thread Cert.ReferenceIdeal.nD Cert.ReferenceIdeal.τ).loc Cert.ReferenceIdeal.main_arg15)) (m' ((c.tc : Thread Cert.ReferenceIdeal.nD Cert.ReferenceIdeal.τ).loc Cert.ReferenceIdeal.main_arg16)) (m' ((c.tc : Thread Cert.ReferenceIdeal.nD Cert.ReferenceIdeal.τ).loc Cert.ReferenceIdeal.main_arg17)) (m' ((c.tc : Thread Cert.ReferenceIdeal.nD Cert.ReferenceIdeal.τ).loc Cert.ReferenceIdeal.main_arg18)) (m' ((c.tc : Thread Cert.ReferenceIdeal.nD Cert.ReferenceIdeal.τ).loc Cert.ReferenceIdeal.main_arg19))).trans ?_))
    rw [(hagree c).1, (hagree c).2.1, (hagree c).2.2.1, (hagree c).2.2.2.2.2.1, (hagree c).2.2.2.2.2.2.1, (hagree c).2.2.2.2.2.2.2.1, (hagree c).2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1]
  · refine (h c).2.1.trans ((Cert.ReferenceIdeal.Read.val_main_v113_eq (F := Ideal) m' c).trans
      ((Cert.Sage.Ref.head_gw (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg11)) (m' ((c.tc : Thread Cert.ReferenceIdeal.nD Cert.ReferenceIdeal.τ).loc Cert.ReferenceIdeal.main_arg12)) (m' ((c.tc : Thread Cert.ReferenceIdeal.nD Cert.ReferenceIdeal.τ).loc Cert.ReferenceIdeal.main_arg13)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))).trans ?_))
    rw [(hagree c).1, (hagree c).2.1, (hagree c).2.2.2.1, (hagree c).2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]
  · refine (h c).2.2.1.trans ((Cert.ReferenceIdeal.Read.val_main_v123_eq (F := Ideal) m' c).trans
      ((Cert.Sage.Ref.head_sw (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg20)) (m' ((c.tc : Thread Cert.ReferenceIdeal.nD Cert.ReferenceIdeal.τ).loc Cert.ReferenceIdeal.main_arg21)) (m' ((c.tc : Thread Cert.ReferenceIdeal.nD Cert.ReferenceIdeal.τ).loc Cert.ReferenceIdeal.main_arg22)) (m' ((c.tc : Thread Cert.ReferenceIdeal.nD Cert.ReferenceIdeal.τ).loc Cert.ReferenceIdeal.main_arg23)) (m' ((c.tc : Thread Cert.ReferenceIdeal.nD Cert.ReferenceIdeal.τ).loc Cert.ReferenceIdeal.main_arg24)) (m' ((c.tc : Thread Cert.ReferenceIdeal.nD Cert.ReferenceIdeal.τ).loc Cert.ReferenceIdeal.main_arg25))).trans ?_))
    rw [(hagree c).1, (hagree c).2.2.1, (hagree c).2.2.2.2.2.2.2.2.2.1, (hagree c).2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2.1, (hagree c).2.2.2.2.2.2.2.2.2.2.2.2.2.2.2.2.2.2.2.2.2.2.2.1, (hagree c).2.2.2.2.2.2.2.2.2.2.2.2.2.2.2.2.2.2.2.2.2.2.2.2.1, (hagree c).2.2.2.2.2.2.2.2.2.2.2.2.2.2.2.2.2.2.2.2.2.2.2.2.2]

end Cert.Proof

namespace Cert.Proof

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
